-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S64x64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : FVec F S100000x64 .f32) (main_arg2 : IVec S2x1600000 32) (main_arg3 : FVec F S128x64 .f32) (main_arg4 : FVec F S64 .f32) (main_arg5 : FVec F S64x64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S10000x128 : Shape := ⟨2, ![10000, 128]⟩
abbrev S10000x64 : Shape := ⟨2, ![10000, 64]⟩
abbrev S10000 : Shape := ⟨1, ![10000]⟩
abbrev S10000x1 : Shape := ⟨2, ![10000, 1]⟩
abbrev S_ : Shape := ⟨0, ![]⟩
abbrev S1600000x1 : Shape := ⟨2, ![1600000, 1]⟩
abbrev S1600000x64 : Shape := ⟨2, ![1600000, 64]⟩

abbrev nBuf : Space → Nat
  | .hbm => 57
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1x64, .f32⟩
  | .hbm, ⟨20, _⟩ => ⟨S100000x128, .f32⟩
  | .hbm, ⟨21, _⟩ => ⟨S100000x64, .f32⟩
  | .hbm, ⟨22, _⟩ => ⟨S100000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S1x64, .f32⟩
  | .hbm, ⟨37, _⟩ => ⟨S1x64, .f32⟩
  | .hbm, ⟨38, _⟩ => ⟨S100000x128, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S1x64, .f32⟩
  | .hbm, ⟨55, _⟩ => ⟨S1x64, .f32⟩
  | .hbm, ⟨56, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S10000x128, .f32⟩
  | .local _ .vmem, ⟨6, _⟩ => ⟨S10000x128, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S10000x128, .f32⟩
  | .local _ .vmem, ⟨19, _⟩ => ⟨S10000x128, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  concatenates_S10000x64_S10000x64_S10000x128_d1 : Shape.Concatenates [S10000x64, S10000x64] S10000x128 1
  slices_S100000x128_S100000x64_0_0 : S100000x128.Slices ![0, 0] S100000x64
  slices_S100000x128_S100000x64_0_64 : S100000x128.Slices ![0, 64] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x128.size a ≤ S100000x128.size a
  hwx1_8 : ∀ i : grid1.Coords, EltTy.bits .f32 = 32 ∨ (Rect.block (s := S100000x128) S10000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S10000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x64 : Shape := ⟨2, ![1600000, 64]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S2x1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .i1⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .i1⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .i1⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .i1⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .i1⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The kernel program's run with its result named.

  Every weakly fair execution of the three-region program terminates without a fault; in the final state the
  result buffer holds what the last segment boundary of the run holds there (`Gen.W6`, the fold of the host lines
  and the regions' write-backs from the launch memory), and the argument arrays are as launched.  The launch is
  the one of the generated frame, over the same segments, thread states and proof data; only the final reading asks
  for one more buffer.
-/
import proofs.«146292_j66013647339805_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments unchanged. -/
theorem run_named : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KRun

end
-- ==== Proof.Spec.lean ====
/-
  The node-wise mathematics of the two programs, on the extended reals, stated once and for any number of rows.

  Each node (row) carries a latent vector of 64 entries.  Three row-wise maps are used:
  * `unit (lin x W b)`: the affine image `x·W + b` of a 128-entry feature row, divided by the larger of its
    Euclidean norm and the programs' small positive constant;
  * `proj v W`: the row `v·W`;
  * `combine x h e Wl bl Wg bg`: `leaky ((leaky h · Wg + bg) + (leaky (x·Wl + bl) + e))`, with `leaky` the
    rectifier that scales negative entries by the programs' slope constant.
  A whole array of `N` rows is mapped row by row (`stageA`, `stageB`, `stageC`); the first two place the new
  latent row in columns 0‥63 and its projection in columns 64‥127.  Since a result row depends on the same row of the
  row-indexed operands only, a block of consecutive rows of the result is the same map applied to that block of rows.
-/
import Idealize.ShloMosaic.PureOps.Ideal.Laws
import Idealize.ShloMosaic.Lib.ValueIdx

noncomputable section

namespace Cert.Spec

open Idealize.ShloMosaic Idealize.ShloMosaic.ValueIdx

/-- An `a×b` matrix of extended reals, indexed as the programs index a rank-2 array. -/
abbrev Mat (a b : ℕ) : Type := (⟨2, ![a, b]⟩ : Shape).Idx → EReal
/-- A vector of `b` extended reals, indexed as a rank-1 array. -/
abbrev Row (b : ℕ) : Type := (⟨1, ![b]⟩ : Shape).Idx → EReal

/-- Row `r` of a matrix. -/
def rows {a b : ℕ} (X : Mat a b) (r : Fin a) : Fin b → EReal := fun k => X (ix2 r k)
/-- A matrix by its two coordinates. -/
def cur {a b : ℕ} (W : Mat a b) : Fin a → Fin b → EReal := fun k c => W (ix2 k c)
/-- A rank-1 array by its coordinate. -/
def vec1 {b : ℕ} (v : Row b) : Fin b → EReal := fun c => v (ix1 c)
/-- The one row of a `1×b` matrix. -/
def vec01 {b : ℕ} (v : Mat 1 b) : Fin b → EReal := fun c => v (ix2 (0 : Fin 1) c)

/-- The zero word, the small positive constant under the norm, and the rectifier's slope, as the programs spell them. -/
def zeroW : EReal := Ideal.ofBits .f32 0x00000000#32
def epsW : EReal := Ideal.ofBits .f32 0x2B8CBCCC#32
def slopeW : EReal := Ideal.ofBits .f32 0x3C23D70A#32

/-- The leaky rectifier: `x` where `x ≥ 0`, the slope times `x` elsewhere. -/
def leaky (x : EReal) : EReal := Scalar.select (Ideal.cmp .oge x zeroW) x (slopeW * x)

/-- The affine image of a row: `x·W + b`. -/
def lin {K : ℕ} (x : Fin K → EReal) (W : Fin K → Fin 64 → EReal) (b : Fin 64 → EReal) : Fin 64 → EReal :=
  fun c => (∑ k : Fin K, x k * W k c) + b c

/-- A row divided by the larger of its Euclidean norm and the small constant. -/
def unit (v : Fin 64 → EReal) : Fin 64 → EReal :=
  fun c => Ideal.div (v c) (max (Ideal.sqrt (∑ k : Fin 64, v k * v k)) epsW)

/-- The row `v·W`. -/
def proj (v : Fin 64 → EReal) (W : Fin 64 → Fin 64 → EReal) : Fin 64 → EReal :=
  fun c => ∑ k : Fin 64, v k * W k c

/-- One layer's update of a latent row `x` from its aggregated neighbour row `h` and its identity row `e`. -/
def combine (x h e : Fin 64 → EReal) (Wl : Fin 64 → Fin 64 → EReal) (bl : Fin 64 → EReal)
    (Wg : Fin 64 → Fin 64 → EReal) (bg : Fin 64 → EReal) : Fin 64 → EReal :=
  fun c => leaky (((∑ k : Fin 64, leaky (h k) * Wg k c) + bg c) + (leaky ((∑ k : Fin 64, x k * Wl k c) + bl c) + e c))

/-- A 64-entry row beside its projection: columns 0‥63 hold `v`, columns 64‥127 hold `v·Wc`. -/
def beside (v : Fin 64 → EReal) (Wc : Fin 64 → Fin 64 → EReal) (q : ℕ) (hq : q < 128) : EReal :=
  if h : q < 64 then v ⟨q, h⟩ else proj v Wc ⟨q - 64, by omega⟩

/-- The first stage over `N` rows: each feature row's normalised affine image beside its projection. -/
def stageA {N : ℕ} (X : Mat N 128) (W : Mat 128 64) (b : Fin 64 → EReal) (Wc : Mat 64 64) : Mat N 128 :=
  fun i => beside (unit (lin (rows X (i 0)) (cur W) b)) (cur Wc) (i 1).val (i 1).isLt

/-- A middle stage over `N` rows: each row's update beside its projection. -/
def stageB {N : ℕ} (X H E : Mat N 64) (Wl : Mat 64 64) (bl : Fin 64 → EReal) (Wg : Mat 64 64) (bg : Fin 64 → EReal)
    (Wc : Mat 64 64) : Mat N 128 :=
  fun i => beside (combine (rows X (i 0)) (rows H (i 0)) (rows E (i 0)) (cur Wl) bl (cur Wg) bg) (cur Wc) (i 1).val (i 1).isLt

/-- The last stage over `N` rows: each row's update. -/
def stageC {N : ℕ} (X H E : Mat N 64) (Wl : Mat 64 64) (bl : Fin 64 → EReal) (Wg : Mat 64 64) (bg : Fin 64 → EReal) :
    Mat N 64 :=
  fun i => combine (rows X (i 0)) (rows H (i 0)) (rows E (i 0)) (cur Wl) bl (cur Wg) bg ⟨(i 1).val, (i 1).isLt⟩

/-! ## Row-locality: a result entry depends on its own row of the row-indexed operands only -/

theorem stageA_congr {N N' : ℕ} (X : Mat N 128) (X' : Mat N' 128) (W : Mat 128 64) (b : Fin 64 → EReal) (Wc : Mat 64 64)
    (i : (⟨2, ![N, 128]⟩ : Shape).Idx) (i' : (⟨2, ![N', 128]⟩ : Shape).Idx)
    (hX : rows X (i 0) = rows X' (i' 0)) (hc : (i 1).val = (i' 1).val) :
    stageA X W b Wc i = stageA X' W b Wc i' := by
  unfold stageA
  rw [hX]
  congr 1

theorem stageB_congr {N N' : ℕ} (X H E : Mat N 64) (X' H' E' : Mat N' 64) (Wl : Mat 64 64) (bl : Fin 64 → EReal)
    (Wg : Mat 64 64) (bg : Fin 64 → EReal) (Wc : Mat 64 64)
    (i : (⟨2, ![N, 128]⟩ : Shape).Idx) (i' : (⟨2, ![N', 128]⟩ : Shape).Idx)
    (hX : rows X (i 0) = rows X' (i' 0)) (hH : rows H (i 0) = rows H' (i' 0)) (hE : rows E (i 0) = rows E' (i' 0))
    (hc : (i 1).val = (i' 1).val) :
    stageB X H E Wl bl Wg bg Wc i = stageB X' H' E' Wl bl Wg bg Wc i' := by
  unfold stageB
  rw [hX, hH, hE]
  congr 1

theorem stageC_congr {N N' : ℕ} (X H E : Mat N 64) (X' H' E' : Mat N' 64) (Wl : Mat 64 64) (bl : Fin 64 → EReal)
    (Wg : Mat 64 64) (bg : Fin 64 → EReal)
    (i : (⟨2, ![N, 64]⟩ : Shape).Idx) (i' : (⟨2, ![N', 64]⟩ : Shape).Idx)
    (hX : rows X (i 0) = rows X' (i' 0)) (hH : rows H (i 0) = rows H' (i' 0)) (hE : rows E (i 0) = rows E' (i' 0))
    (hc : (i 1).val = (i' 1).val) :
    stageC X H E Wl bl Wg bg i = stageC X' H' E' Wl bl Wg bg i' := by
  unfold stageC
  rw [hX, hH, hE]
  congr 2

/-! ## The two halves of a row beside its projection -/

theorem beside_left (v : Fin 64 → EReal) (Wc : Fin 64 → Fin 64 → EReal) (q : Fin 64) (hq : q.val < 128) :
    beside v Wc q.val hq = v q := by
  unfold beside
  rw [dif_pos q.isLt]

theorem beside_right (v : Fin 64 → EReal) (Wc : Fin 64 → Fin 64 → EReal) (q : Fin 64) (hq : q.val + 64 < 128) :
    beside v Wc (q.val + 64) hq = proj v Wc q := by
  unfold beside
  rw [dif_neg (by omega)]
  congr 1

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Pay.lean ====
/-
  What each kernel body stores, as a function of the blocks it loads, on the extended reals.

  The first body stores, for its block of 10000 feature rows, each row's normalised affine image beside that image's
  projection (`Spec.stageA` at 10000 rows); the second, each row's layer update beside its projection (`Spec.stageB`);
  the third, each row's layer update (`Spec.stageC`).  A matrix-unit product into a zero accumulator is the plain sum
  over the contracted axis, a lane sum is the sum over the row, and format-preserving casts and broadcasts only move
  indices, so each stored entry is the row-wise formula at its own row.
-/
import proofs.«146292_j66013647339805_2_alg».proof.Proof.Gen.KernelIdeal.Skeleton
import proofs.«146292_j66013647339805_2_alg».proof.Proof.Spec
import proofs.«146292_j66013647339805_2_alg».proof.Proof.LibPlainDot
import proofs.«146292_j66013647339805_2_alg».proof.Proof.LibKeepdims
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Spec

/-! ## The non-pointwise operations, over any operands, at an index -/

/-- A 64-column matrix-unit product into the zero accumulator, at `(p, c)`: the sum over the contracted axis. -/
theorem matmul64_apply {K : ℕ} (D : DotDims (⟨2, ![10000, K]⟩ : Shape) (⟨2, ![K, 64]⟩ : Shape) S10000x64)
    (hD : D = DotDims.plain 10000 K 64)
    (l : FVec Ideal (⟨2, ![10000, K]⟩ : Shape) .f32) (w : FVec Ideal (⟨2, ![K, 64]⟩ : Shape) .f32) (p : Fin 10000) (c : Fin 64) :
    matmul D none l w (constant S10000x64 .f32 0x00000000#32) (ix2 p c) = ∑ k : Fin K, l (ix2 p k) * w (ix2 k c) := by
  subst hD
  exact Cert.PlainDot.matmul_zero_apply 10000 K 64 none l w (ix2 p c)

/-- A `1×64` bias row, cast to its own shape and broadcast over the rows, at `(p, c)`: entry `c` of the row. -/
theorem bias_apply (b : FVec Ideal S1x64 .f32) (h1 : S1x64.ShapeCasts S1x64) (h2 : S1x64.Broadcasts S10000x64)
    (p : Fin 10000) (c : Fin 64) :
    broadcastTo S10000x64 (shapeCast S1x64 b h1) h2 (ix2 p c) = vec01 b c := by
  rw [shapeCast_self b h1]
  exact broadcastTo_1b_ab_apply b h2 p c

/-- The rectifier on a vector, at an index. -/
theorem leaky_apply (v : FVec Ideal S10000x64 .f32) (j : S10000x64.Idx) :
    select (cmpf .oge v (broadcast S10000x64 (Scalar.ofBits (F := Ideal) .f32 0x00000000#32))) v
      (mulf (broadcast S10000x64 (Scalar.ofBits (F := Ideal) .f32 0x3C23D70A#32)) v) j = leaky (v j) := rfl

/-- A row divided by the larger of its norm (the lane sum of squares kept as a column, rooted) and the small constant,
    broadcast back over the columns, at `(p, c)`. -/
theorem unit_apply (u : FVec Ideal S10000x64 .f32) (hr : S10000x64.Reduces [1] S10000) (hφ : FKind.Formats FTy.f32)
    (hacc : (0x00000000#32 : BitVec FTy.f32.bits) = FKind.add.neutral .f32 hφ)
    (hc : S10000.ShapeCasts S10000x1) (hb : S10000x1.Broadcasts S10000x64) (p : Fin 10000) (c : Fin 64) :
    divf u (broadcastTo S10000x64
        (maximumf (sqrt (shapeCast S10000x1 (multiReduction .add [1] S10000 (mulf u u) 0x00000000#32 hr hφ hacc) hc))
          (broadcast S10000x1 (Scalar.ofBits (F := Ideal) .f32 0x2B8CBCCC#32))) hb) (ix2 p c)
      = unit (fun k => u (ix2 p k)) c := by
  show Ideal.div (u (ix2 p c)) _ = Ideal.div (u (ix2 p c)) _
  refine congrArg (Ideal.div (u (ix2 p c))) ?_
  refine (Cert.Keepdims.broadcastTo_a1_ab_apply _ hb p c).trans ?_
  show max (Ideal.sqrt (shapeCast S10000x1 _ hc (ix2 p (0 : Fin 1)))) epsW = max (Ideal.sqrt _) epsW
  refine congrArg (fun t => max (Ideal.sqrt t) epsW) ?_
  exact (Cert.Keepdims.shapeCast_a_a1_apply _ hc p 0).trans (Cert.Keepdims.sum_axis1_apply (mulf u u) _ hr hφ hacc p)

/-- A row's affine image, as a matrix-unit product into zero plus the broadcast bias row, at `(p, c)`. -/
theorem lin_apply {K : ℕ} (D : DotDims (⟨2, ![10000, K]⟩ : Shape) (⟨2, ![K, 64]⟩ : Shape) S10000x64)
    (hD : D = DotDims.plain 10000 K 64)
    (l : FVec Ideal (⟨2, ![10000, K]⟩ : Shape) .f32) (w : FVec Ideal (⟨2, ![K, 64]⟩ : Shape) .f32) (b : FVec Ideal S1x64 .f32)
    (h1 : S1x64.ShapeCasts S1x64) (h2 : S1x64.Broadcasts S10000x64) (p : Fin 10000) (c : Fin 64) :
    addf (matmul D none l w (constant S10000x64 .f32 0x00000000#32)) (broadcastTo S10000x64 (shapeCast S1x64 b h1) h2) (ix2 p c)
      = lin (rows l p) (cur w) (vec01 b) c :=
  (addf_apply _ _ _).trans (congrArg₂ (· + ·) (matmul64_apply D hD l w p c) (bias_apply b h1 h2 p c))

/-- A 64-column value beside its product with a `64×64` matrix, at `(p, q)`: the row beside its projection. -/
theorem beside_apply (v : FVec Ideal S10000x64 .f32) (w : FVec Ideal S64x64 .f32)
    (hcat : Shape.Concatenates [S10000x64, S10000x64] S10000x128 1) (p : Fin 10000) (q : Fin 128) :
    concatenate S10000x128 1
        [⟨S10000x64, v⟩,
         ⟨S10000x64, matmul dot_S10000x64_S64x64_S10000x64_1_0_0_1_n_n none v w (constant S10000x64 .f32 0x00000000#32)⟩]
        hcat (ix2 p q)
      = beside (rows v p) (cur w) q.val q.isLt := by
  unfold beside
  by_cases hq : q.val < 64
  · rw [dif_pos hq]
    exact concatenate_pair_apply_left (t := S10000x128) (s₁ := S10000x64) (s₂ := S10000x64) 1 v _ hcat (ix2 p q) rfl
      (ix2 p ⟨q.val, hq⟩) (fun b => match b with | ⟨0, _⟩ => rfl | ⟨1, _⟩ => rfl)
  · rw [dif_neg hq]
    have hq' : q.val - 64 < 64 := by have := q.isLt; omega
    refine (concatenate_pair_apply_right (t := S10000x128) (s₁ := S10000x64) (s₂ := S10000x64) 1 v _ hcat (ix2 p q) rfl rfl
      (ix2 p ⟨q.val - 64, hq'⟩) ?_ ?_).trans ?_
    · intro b hb
      match b, hb with
      | ⟨0, _⟩, _ => rfl
      | ⟨1, _⟩, hb => exact absurd rfl hb
    · show (q.val - 64) + 64 = q.val
      omega
    · exact matmul64_apply _ rfl v w p ⟨q.val - 64, hq'⟩

/-- The 64-column update value of the second body, at `(p, c)`: the layer update of row `p`. -/
theorem combine_apply (h x : Vec Ideal S10000x64 .f32) (wl : Vec Ideal S64x64 .f32) (bl : Vec Ideal S1x64 .f32)
    (e : Vec Ideal S10000x64 .f32) (wg : Vec Ideal S64x64 .f32) (bg : Vec Ideal S1x64 .f32) (p : Fin 10000) (c : Fin 64) :
    k1_pay2 (F := Ideal) h x wl bl e wg bg (ix2 p c)
      = combine (rows x p) (rows h p) (rows e p) (cur wl) (vec01 bl) (cur wg) (vec01 bg) c := by
  unfold k1_pay2 combine
  refine (leaky_apply _ _).trans (congrArg leaky ?_)
  refine (addf_apply _ _ _).trans (congrArg₂ (· + ·) ?_ ?_)
  · -- the neighbour term: the rectified neighbour row times `Wg`, plus `bg`
    refine (lin_apply _ rfl _ wg bg _ _ p c).trans ?_
    refine congrArg (· + vec01 bg c) (Finset.sum_congr rfl fun k _ => ?_)
    refine congrArg (· * cur wg k c) ?_
    refine (leaky_apply _ _).trans (congrArg leaky ?_)
    exact congrFun (shapeCast_self h _) (ix2 p k)
  · -- the self term: the rectified affine image of the latent row, plus the identity row
    refine (addf_apply _ _ _).trans (congrArg (· + e (ix2 p c)) ?_)
    refine (leaky_apply _ _).trans (congrArg leaky ?_)
    refine (lin_apply _ rfl _ wl bl _ _ p c).trans ?_
    refine congrArg (· + vec01 bl c) (Finset.sum_congr rfl fun k _ => ?_)
    exact congrArg (· * cur wl k c) (congrFun (shapeCast_self x _) (ix2 p k))

/-- The third body's update value is the second body's: the two are the same term of the same operands. -/
theorem k2_pay1_eq (h x : Vec Ideal S10000x64 .f32) (wl : Vec Ideal S64x64 .f32) (bl : Vec Ideal S1x64 .f32)
    (e : Vec Ideal S10000x64 .f32) (wg : Vec Ideal S64x64 .f32) (bg : Vec Ideal S1x64 .f32) :
    k2_pay1 (F := Ideal) h x wl bl e wg bg = k1_pay2 (F := Ideal) h x wl bl e wg bg := rfl

/-! ## The three stored blocks -/

/-- The first body's stored block. -/
theorem pay0 (xb : Vec Ideal S10000x128 .f32) (wb : Vec Ideal S128x64 .f32) (bb : Vec Ideal S1x64 .f32) (cb : Vec Ideal S64x64 .f32) :
    k0_pay1 (F := Ideal) xb wb bb cb = stageA (N := 10000) xb wb (vec01 bb) cb := by
  funext j
  obtain ⟨p, q, rfl⟩ : ∃ (p : Fin 10000) (q : Fin 128), j = ix2 p q := ⟨j 0, j 1, eq_ix2 j⟩
  show k0_pay1 (F := Ideal) xb wb bb cb (ix2 p q)
    = beside (unit (lin (rows xb p) (cur wb) (vec01 bb))) (cur cb) q.val q.isLt
  unfold k0_pay1
  refine (beside_apply _ cb _ p q).trans ?_
  refine congrArg (fun v => beside v (cur cb) q.val q.isLt) (funext fun c => ?_)
  -- the normalised affine image of row `p`, at column `c`
  exact (unit_apply _ _ _ _ _ _ p c).trans
    (congrArg (fun v => unit v c) (funext fun k => lin_apply _ rfl xb wb bb _ _ p k))

/-- The second body's stored block: `h` the aggregated-neighbour block, `x` the latent block, `e` the identity block. -/
theorem pay1 (h x : Vec Ideal S10000x64 .f32) (wl : Vec Ideal S64x64 .f32) (bl : Vec Ideal S1x64 .f32) (e : Vec Ideal S10000x64 .f32)
    (wg : Vec Ideal S64x64 .f32) (bg : Vec Ideal S1x64 .f32) (wc : Vec Ideal S64x64 .f32) :
    k1_pay1 (F := Ideal) (k1_pay2 (F := Ideal) h x wl bl e wg bg) wc = stageB (N := 10000) x h e wl (vec01 bl) wg (vec01 bg) wc := by
  funext j
  obtain ⟨p, q, rfl⟩ : ∃ (p : Fin 10000) (q : Fin 128), j = ix2 p q := ⟨j 0, j 1, eq_ix2 j⟩
  show k1_pay1 (F := Ideal) (k1_pay2 (F := Ideal) h x wl bl e wg bg) wc (ix2 p q)
    = beside (combine (rows x p) (rows h p) (rows e p) (cur wl) (vec01 bl) (cur wg) (vec01 bg)) (cur wc) q.val q.isLt
  unfold k1_pay1
  refine (beside_apply _ wc _ p q).trans ?_
  exact congrArg (fun v => beside v (cur wc) q.val q.isLt) (funext fun c => combine_apply h x wl bl e wg bg p c)

/-- The third body's stored block. -/
theorem pay2 (h x : Vec Ideal S10000x64 .f32) (wl : Vec Ideal S64x64 .f32) (bl : Vec Ideal S1x64 .f32) (e : Vec Ideal S10000x64 .f32)
    (wg : Vec Ideal S64x64 .f32) (bg : Vec Ideal S1x64 .f32) :
    k2_pay1 (F := Ideal) h x wl bl e wg bg = stageC (N := 10000) x h e wl (vec01 bl) wg (vec01 bg) := by
  rw [k2_pay1_eq]
  funext j
  obtain ⟨p, c, rfl⟩ : ∃ (p : Fin 10000) (c : Fin 64), j = ix2 p c := ⟨j 0, j 1, eq_ix2 j⟩
  exact combine_apply h x wl bl e wg bg p c

end Cert.KernelIdeal.Pay

end
-- ==== Proof.Blocks.lean ====
/-
  Each kernel region's output array after its ten grid points, as one function of the arrays the region finds.

  Grid point `t` stages rows `10000·t … 10000·t + 9999` of every row-indexed operand (the weight matrices and bias rows
  whole, at every point) and writes back rows `10000·t … 10000·t + 9999` of the output.  What the body stores is the
  row-wise map of its loaded blocks (`Pay`), and a row of the result depends on the same row of the operands only
  (`Spec.stageA_congr` …), so the written block is that block of the whole-array map; the ten blocks tile the
  100000 rows, so the array ends holding the whole-array map.  Stated at any entry contents `V`.
-/
import proofs.«146292_j66013647339805_2_alg».proof.Proof.Gen.KernelIdeal.Frame
import proofs.«146292_j66013647339805_2_alg».proof.Proof.Pay
import proofs.«146292_j66013647339805_2_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## A stage on a block of rows is that block of the stage on all rows

Stated over variables: the block's rows are the corresponding rows of the whole row-indexed operands, the weights and
biases are the same arrays, and the column is the same. -/

theorem stageA_block {N N' : ℕ} (xb : Mat N 128) (X : Mat N' 128) (wb W : Mat 128 64) (bb b : Mat 1 64) (cb Wc : Mat 64 64)
    (y : (⟨2, ![N, 128]⟩ : Shape).Idx) (i : (⟨2, ![N', 128]⟩ : Shape).Idx)
    (hx : ∀ k : Fin 128, xb (ix2 (y 0) k) = X (ix2 (i 0) k))
    (hw : wb = W) (hb : bb = b) (hcb : cb = Wc) (hc : (y 1).val = (i 1).val) :
    stageA xb wb (vec01 bb) cb y = stageA X W (vec01 b) Wc i := by
  subst hw hb hcb
  exact stageA_congr xb X wb (vec01 bb) cb y i (funext hx) hc

theorem stageB_block {N N' : ℕ} (xb hb eb : Mat N 64) (X H E : Mat N' 64) (wlb Wl wgb Wg : Mat 64 64)
    (blb bl bgb bg : Mat 1 64) (wcb Wc : Mat 64 64)
    (y : (⟨2, ![N, 128]⟩ : Shape).Idx) (i : (⟨2, ![N', 128]⟩ : Shape).Idx)
    (hx : ∀ k : Fin 64, xb (ix2 (y 0) k) = X (ix2 (i 0) k))
    (hh : ∀ k : Fin 64, hb (ix2 (y 0) k) = H (ix2 (i 0) k))
    (he : ∀ k : Fin 64, eb (ix2 (y 0) k) = E (ix2 (i 0) k))
    (hwl : wlb = Wl) (hbl : blb = bl) (hwg : wgb = Wg) (hbg : bgb = bg) (hwc : wcb = Wc) (hc : (y 1).val = (i 1).val) :
    stageB xb hb eb wlb (vec01 blb) wgb (vec01 bgb) wcb y = stageB X H E Wl (vec01 bl) Wg (vec01 bg) Wc i := by
  subst hwl hbl hwg hbg hwc
  exact stageB_congr xb hb eb X H E wlb (vec01 blb) wgb (vec01 bgb) wcb y i (funext hx) (funext hh) (funext he) hc

theorem stageC_block {N N' : ℕ} (xb hb eb : Mat N 64) (X H E : Mat N' 64) (wlb Wl wgb Wg : Mat 64 64)
    (blb bl bgb bg : Mat 1 64)
    (y : (⟨2, ![N, 64]⟩ : Shape).Idx) (i : (⟨2, ![N', 64]⟩ : Shape).Idx)
    (hx : ∀ k : Fin 64, xb (ix2 (y 0) k) = X (ix2 (i 0) k))
    (hh : ∀ k : Fin 64, hb (ix2 (y 0) k) = H (ix2 (i 0) k))
    (he : ∀ k : Fin 64, eb (ix2 (y 0) k) = E (ix2 (i 0) k))
    (hwl : wlb = Wl) (hbl : blb = bl) (hwg : wgb = Wg) (hbg : bgb = bg) (hc : (y 1).val = (i 1).val) :
    stageC xb hb eb wlb (vec01 blb) wgb (vec01 bgb) y = stageC X H E Wl (vec01 bl) Wg (vec01 bg) i := by
  subst hwl hbl hwg hbg
  exact stageC_congr xb hb eb X H E wlb (vec01 blb) wgb (vec01 bgb) y i (funext hx) (funext hh) (funext he) hc

/-- The offset of a load or store through a whole staging buffer. -/
theorem hz : (![0, 0] : Fin 2 → Nat) = fun _ => 0 := funext fun a => by fin_cases a <;> rfl

/-! ## Region 0 -/

/-- The index maps of region 0's windows, decided over the ten grid points: a row-blocked window sits at block `t` of
    the rows at point `t`; a weight or bias window sits at block (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the whole-array stage of the arrays the region finds. -/
theorem flushed0_eq (c : Dev nD) (t : Fin cfg0.N) :
    (dat0 (F := Ideal) V c).flushed 4 t = ((cfg0.win 4).blk t).view.read (Elt Ideal)
      (stageA (N := 100000) (V c main_arg0) (V c main_arg3) (vec01 (V c main_v4)) (V c main_arg5)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x64) hz, View.ld_unit_zero (S := S1x64) hz,
    View.ld_unit_zero (S := S64x64) hz]
  obtain ⟨e00, e01, e10, e11, e20, e21, e30, e31, e40, e41⟩ := idx_facts0 t
  funext y
  refine (congrFun (Pay.pay0 (iblk0 V c 0 t) (iblk0 V c 1 t) (iblk0 V c 2 t) (iblk0 V c 3 t)) _).trans ?_
  refine stageA_block (N := 10000) (N' := 100000) (iblk0 V c 0 t) (V c main_arg0) (iblk0 V c 1 t) (V c main_arg3)
    (iblk0 V c 2 t) (V c main_v4) (iblk0 V c 3 t) (V c main_arg5)
    _ (((cfg0.win 4).blk t).view.emb y) ?_ ?_ ?_ ?_ ?_
  · intro k
    show V c main_arg0 (((cfg0.win 0).blk t).view.emb _) = V c main_arg0 _
    refine congrArg (V c main_arg0) ?_
    funext a; apply Fin.ext
    match a with
    | ⟨0, _⟩ => show win0_0.index t (0 : Fin 2) * 10000 + 1 * (y 0).val = win0_4.index t (0 : Fin 2) * 10000 + 1 * (y 0).val; rw [e00, e40]
    | ⟨1, _⟩ => show win0_0.index t (1 : Fin 2) * 128 + 1 * k.val = k.val; rw [e01]; omega
  · funext j
    show V c main_arg3 (((cfg0.win 1).blk t).view.emb j) = V c main_arg3 j
    refine congrArg (V c main_arg3) ?_
    funext a; apply Fin.ext
    match a with
    | ⟨0, _⟩ => show win0_1.index t (0 : Fin 2) * 128 + 1 * (j 0).val = (j 0).val; rw [e10]; omega
    | ⟨1, _⟩ => show win0_1.index t (1 : Fin 2) * 64 + 1 * (j 1).val = (j 1).val; rw [e11]; omega
  · funext j
    show V c main_v4 (((cfg0.win 2).blk t).view.emb j) = V c main_v4 j
    refine congrArg (V c main_v4) ?_
    funext a; apply Fin.ext
    match a with
    | ⟨0, _⟩ => show win0_2.index t (0 : Fin 2) * 1 + 1 * (j 0).val = (j 0).val; rw [e20]; omega
    | ⟨1, _⟩ => show win0_2.index t (1 : Fin 2) * 64 + 1 * (j 1).val = (j 1).val; rw [e21]; omega
  · funext j
    show V c main_arg5 (((cfg0.win 3).blk t).view.emb j) = V c main_arg5 j
    refine congrArg (V c main_arg5) ?_
    funext a; apply Fin.ext
    match a with
    | ⟨0, _⟩ => show win0_3.index t (0 : Fin 2) * 64 + 1 * (j 0).val = (j 0).val; rw [e30]; omega
    | ⟨1, _⟩ => show win0_3.index t (1 : Fin 2) * 64 + 1 * (j 1).val = (j 1).val; rw [e31]; omega
  · show (y 1).val = win0_4.index t (1 : Fin 2) * 128 + 1 * (y 1).val
    rw [e41]; omega

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v5).slice (win0_4.rect t)).set ↔ _
  rw [View.set_slice_whole, Rect.mem_set_unit]
  exact Iff.rfl

/-- Every one of the ten row blocks is some point's. -/
theorem idx_onto0 : ∀ q : Fin 10, ∃ t : Fin cfg0.N, t.val = q.val :=
  (by decide +kernel : ∀ q : Fin 10, ∃ t : Fin grid0.N, t.val = q.val)

/-- Row `r` of the output is written back by point `r / 10000`: the ten blocks tile the rows. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto0 ⟨(i 0).val / 10000, by omega⟩
  have ht' : t.val = (i 0).val / 10000 := ht
  obtain ⟨-, -, -, -, -, -, -, -, e40, e41⟩ := idx_facts0 t
  refine ⟨t, flush0_4 t, ?_⟩
  rw [mem_blk0]
  intro a
  match a with
  | ⟨0, _⟩ => show win0_4.index t (0 : Fin 2) * 10000 ≤ (i 0).val ∧ (i 0).val < win0_4.index t (0 : Fin 2) * 10000 + 10000; rw [e40]; omega
  | ⟨1, _⟩ => show win0_4.index t (1 : Fin 2) * 128 ≤ (i 1).val ∧ (i 1).val < win0_4.index t (1 : Fin 2) * 128 + 128; rw [e41]; omega

/-- Region 0 (the normalised affine image beside its projection). -/
theorem region0 (c : Dev nD) :
    (dat0 (F := Ideal) V c).arrAt 4 cfg0.N
      = stageA (N := 100000) (V c main_arg0) (V c main_arg3) (vec01 (V c main_v4)) (V c main_arg5) :=
  (dat0 V c).arrAt_eq_of_cover 4 _ (fun t _ => flushed0_eq V c t) cover0

/-! ## Region 1 -/

/-- The index maps of region 1's windows, decided over the ten grid points: a row-blocked window sits at block `t` of
    the rows at point `t`; a weight or bias window sits at block (0, 0) at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point `t` writes back is block `t` of the whole-array stage of the arrays the region finds. -/
theorem flushed1_eq (c : Dev nD) (t : Fin cfg1.N) :
    (dat1 (F := Ideal) V c).flushed 8 t = ((cfg1.win 8).blk t).view.read (Elt Ideal)
      (stageB (N := 100000) (V c main_v6) (V c main_v17) (V c main_arg1) (V c main_arg6) (vec01 (V c main_v18))
          (V c main_arg8) (vec01 (V c main_v19)) (V c main_arg10)) := by
  show (cfg1.win 8).cut (grid1.coords t) ((dat1 V c).after 8 t) = _
  rw [after1_8]
  unfold out1_8
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71, e80, e81⟩ := idx_facts1 t
  funext y
  refine (congrFun (Pay.pay1 (iblk1 V c 1 t) (iblk1 V c 0 t) (iblk1 V c 3 t) (iblk1 V c 4 t) (iblk1 V c 2 t) (iblk1 V c 5 t)
    (iblk1 V c 6 t) (iblk1 V c 7 t)) _).trans ?_
  refine stageB_block (N := 10000) (N' := 100000) (iblk1 V c 0 t) (iblk1 V c 1 t) (iblk1 V c 2 t)
    (V c main_v6) (V c main_v17) (V c main_arg1) (iblk1 V c 3 t) (V c main_arg6) (iblk1 V c 5 t) (V c main_arg8)
    (iblk1 V c 4 t) (V c main_v18) (iblk1 V c 6 t) (V c main_v19) (iblk1 V c 7 t) (V c main_arg10)
    _ (((cfg1.win 8).blk t).view.emb y) ?_ ?_ ?_ ?_ ?_ ?_ ?_ ?_ ?_
  · intro k
    show V c main_v6 (((cfg1.win 0).blk t).view.emb _) = V c main_v6 _
    refine congrArg (V c main_v6) ?_
    funext a; apply Fin.ext
    match a with
    | ⟨0, _⟩ => show win1_0.index t (0 : Fin 2) * 10000 + 1 * (y 0).val = win1_8.index t (0 : Fin 2) * 10000 + 1 * (y 0).val; rw [e00, e80]
    | ⟨1, _⟩ => show win1_0.index t (1 : Fin 2) * 64 + 1 * k.val = k.val; rw [e01]; omega
  · intro k
    show V c main_v17 (((cfg1.win 1).blk t).view.emb _) = V c main_v17 _
    refine congrArg (V c main_v17) ?_
    funext a; apply Fin.ext
    match a with
    | ⟨0, _⟩ => show win1_1.index t (0 : Fin 2) * 10000 + 1 * (y 0).val = win1_8.index t (0 : Fin 2) * 10000 + 1 * (y 0).val; rw [e10, e80]
    | ⟨1, _⟩ => show win1_1.index t (1 : Fin 2) * 64 + 1 * k.val = k.val; rw [e11]; omega
  · intro k
    show V c main_arg1 (((cfg1.win 2).blk t).view.emb _) = V c main_arg1 _
    refine congrArg (V c main_arg1) ?_
    funext a; apply Fin.ext
    match a with
    | ⟨0, _⟩ => show win1_2.index t (0 : Fin 2) * 10000 + 1 * (y 0).val = win1_8.index t (0 : Fin 2) * 10000 + 1 * (y 0).val; rw [e20, e80]
    | ⟨1, _⟩ => show win1_2.index t (1 : Fin 2) * 64 + 1 * k.val = k.val; rw [e21]; omega
  · funext j
    show V c main_arg6 (((cfg1.win 3).blk t).view.emb j) = V c main_arg6 j
    refine congrArg (V c main_arg6) ?_
    funext a; apply Fin.ext
    match a with
    | ⟨0, _⟩ => show win1_3.index t (0 : Fin 2) * 64 + 1 * (j 0).val = (j 0).val; rw [e30]; omega
    | ⟨1, _⟩ => show win1_3.index t (1 : Fin 2) * 64 + 1 * (j 1).val = (j 1).val; rw [e31]; omega
  · funext j
    show V c main_v18 (((cfg1.win 4).blk t).view.emb j) = V c main_v18 j
    refine congrArg (V c main_v18) ?_
    funext a; apply Fin.ext
    match a with
    | ⟨0, _⟩ => show win1_4.index t (0 : Fin 2) * 1 + 1 * (j 0).val = (j 0).val; rw [e40]; omega
    | ⟨1, _⟩ => show win1_4.index t (1 : Fin 2) * 64 + 1 * (j 1).val = (j 1).val; rw [e41]; omega
  · funext j
    show V c main_arg8 (((cfg1.win 5).blk t).view.emb j) = V c main_arg8 j
    refine congrArg (V c main_arg8) ?_
    funext a; apply Fin.ext
    match a with
    | ⟨0, _⟩ => show win1_5.index t (0 : Fin 2) * 64 + 1 * (j 0).val = (j 0).val; rw [e50]; omega
    | ⟨1, _⟩ => show win1_5.index t (1 : Fin 2) * 64 + 1 * (j 1).val = (j 1).val; rw [e51]; omega
  · funext j
    show V c main_v19 (((cfg1.win 6).blk t).view.emb j) = V c main_v19 j
    refine congrArg (V c main_v19) ?_
    funext a; apply Fin.ext
    match a with
    | ⟨0, _⟩ => show win1_6.index t (0 : Fin 2) * 1 + 1 * (j 0).val = (j 0).val; rw [e60]; omega
    | ⟨1, _⟩ => show win1_6.index t (1 : Fin 2) * 64 + 1 * (j 1).val = (j 1).val; rw [e61]; omega
  · funext j
    show V c main_arg10 (((cfg1.win 7).blk t).view.emb j) = V c main_arg10 j
    refine congrArg (V c main_arg10) ?_
    funext a; apply Fin.ext
    match a with
    | ⟨0, _⟩ => show win1_7.index t (0 : Fin 2) * 64 + 1 * (j 0).val = (j 0).val; rw [e70]; omega
    | ⟨1, _⟩ => show win1_7.index t (1 : Fin 2) * 64 + 1 * (j 1).val = (j 1).val; rw [e71]; omega
  · show (y 1).val = win1_8.index t (1 : Fin 2) * 128 + 1 * (y 1).val
    rw [e81]; omega

/-- An index of the output array is in point `t`'s block iff each coordinate is in the block's range on its axis. -/
theorem mem_blk1 (t : Fin cfg1.N) (i : S100000x128.Idx) :
    i ∈ ((cfg1.win 8).blk t).view.set ↔ ∀ a : Fin 2, win1_8.index t a * S10000x128.size a ≤ (i a).val ∧ (i a).val < win1_8.index t a * S10000x128.size a + S10000x128.size a := by
  show i ∈ ((View.whole main_v20).slice (win1_8.rect t)).set ↔ _
  rw [View.set_slice_whole, Rect.mem_set_unit]
  exact Iff.rfl

/-- Every one of the ten row blocks is some point's. -/
theorem idx_onto1 : ∀ q : Fin 10, ∃ t : Fin cfg1.N, t.val = q.val :=
  (by decide +kernel : ∀ q : Fin 10, ∃ t : Fin grid1.N, t.val = q.val)

/-- Row `r` of the output is written back by point `r / 10000`: the ten blocks tile the rows. -/
theorem cover1 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  obtain ⟨t, ht⟩ := idx_onto1 ⟨(i 0).val / 10000, by omega⟩
  have ht' : t.val = (i 0).val / 10000 := ht
  obtain ⟨-, -, -, -, -, -, -, -, -, -, -, -, -, -, -, -, e80, e81⟩ := idx_facts1 t
  refine ⟨t, flush1_8 t, ?_⟩
  rw [mem_blk1]
  intro a
  match a with
  | ⟨0, _⟩ => show win1_8.index t (0 : Fin 2) * 10000 ≤ (i 0).val ∧ (i 0).val < win1_8.index t (0 : Fin 2) * 10000 + 10000; rw [e80]; omega
  | ⟨1, _⟩ => show win1_8.index t (1 : Fin 2) * 128 ≤ (i 1).val ∧ (i 1).val < win1_8.index t (1 : Fin 2) * 128 + 128; rw [e81]; omega

/-- Region 1 (the first layer's update beside its projection). -/
theorem region1 (c : Dev nD) :
    (dat1 (F := Ideal) V c).arrAt 8 cfg1.N
      = stageB (N := 100000) (V c main_v6) (V c main_v17) (V c main_arg1) (V c main_arg6) (vec01 (V c main_v18))
          (V c main_arg8) (vec01 (V c main_v19)) (V c main_arg10) :=
  (dat1 V c).arrAt_eq_of_cover 8 _ (fun t _ => flushed1_eq V c t) cover1

/-! ## Region 2 -/

/-- The index maps of region 2's windows, decided over the ten grid points: a row-blocked window sits at block `t` of
    the rows at point `t`; a weight or bias window sits at block (0, 0) at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point `t` writes back is block `t` of the whole-array stage of the arrays the region finds. -/
theorem flushed2_eq (c : Dev nD) (t : Fin cfg2.N) :
    (dat2 (F := Ideal) V c).flushed 7 t = ((cfg2.win 7).blk t).view.read (Elt Ideal)
      (stageC (N := 100000) (V c main_v21) (V c main_v32) (V c main_arg1) (V c main_arg11) (vec01 (V c main_v33))
          (V c main_arg13) (vec01 (V c main_v34))) := by
  show (cfg2.win 7).cut (grid2.coords t) ((dat2 V c).after 7 t) = _
  rw [after2_7]
  unfold out2_7
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51, e60, e61, e70, e71⟩ := idx_facts2 t
  funext y
  refine (congrFun (Pay.pay2 (iblk2 V c 1 t) (iblk2 V c 0 t) (iblk2 V c 3 t) (iblk2 V c 4 t) (iblk2 V c 2 t) (iblk2 V c 5 t)
    (iblk2 V c 6 t)) _).trans ?_
  refine stageC_block (N := 10000) (N' := 100000) (iblk2 V c 0 t) (iblk2 V c 1 t) (iblk2 V c 2 t)
    (V c main_v21) (V c main_v32) (V c main_arg1) (iblk2 V c 3 t) (V c main_arg11) (iblk2 V c 5 t) (V c main_arg13)
    (iblk2 V c 4 t) (V c main_v33) (iblk2 V c 6 t) (V c main_v34)
    _ (((cfg2.win 7).blk t).view.emb y) ?_ ?_ ?_ ?_ ?_ ?_ ?_ ?_
  · intro k
    show V c main_v21 (((cfg2.win 0).blk t).view.emb _) = V c main_v21 _
    refine congrArg (V c main_v21) ?_
    funext a; apply Fin.ext
    match a with
    | ⟨0, _⟩ => show win2_0.index t (0 : Fin 2) * 10000 + 1 * (y 0).val = win2_7.index t (0 : Fin 2) * 10000 + 1 * (y 0).val; rw [e00, e70]
    | ⟨1, _⟩ => show win2_0.index t (1 : Fin 2) * 64 + 1 * k.val = k.val; rw [e01]; omega
  · intro k
    show V c main_v32 (((cfg2.win 1).blk t).view.emb _) = V c main_v32 _
    refine congrArg (V c main_v32) ?_
    funext a; apply Fin.ext
    match a with
    | ⟨0, _⟩ => show win2_1.index t (0 : Fin 2) * 10000 + 1 * (y 0).val = win2_7.index t (0 : Fin 2) * 10000 + 1 * (y 0).val; rw [e10, e70]
    | ⟨1, _⟩ => show win2_1.index t (1 : Fin 2) * 64 + 1 * k.val = k.val; rw [e11]; omega
  · intro k
    show V c main_arg1 (((cfg2.win 2).blk t).view.emb _) = V c main_arg1 _
    refine congrArg (V c main_arg1) ?_
    funext a; apply Fin.ext
    match a with
    | ⟨0, _⟩ => show win2_2.index t (0 : Fin 2) * 10000 + 1 * (y 0).val = win2_7.index t (0 : Fin 2) * 10000 + 1 * (y 0).val; rw [e20, e70]
    | ⟨1, _⟩ => show win2_2.index t (1 : Fin 2) * 64 + 1 * k.val = k.val; rw [e21]; omega
  · funext j
    show V c main_arg11 (((cfg2.win 3).blk t).view.emb j) = V c main_arg11 j
    refine congrArg (V c main_arg11) ?_
    funext a; apply Fin.ext
    match a with
    | ⟨0, _⟩ => show win2_3.index t (0 : Fin 2) * 64 + 1 * (j 0).val = (j 0).val; rw [e30]; omega
    | ⟨1, _⟩ => show win2_3.index t (1 : Fin 2) * 64 + 1 * (j 1).val = (j 1).val; rw [e31]; omega
  · funext j
    show V c main_v33 (((cfg2.win 4).blk t).view.emb j) = V c main_v33 j
    refine congrArg (V c main_v33) ?_
    funext a; apply Fin.ext
    match a with
    | ⟨0, _⟩ => show win2_4.index t (0 : Fin 2) * 1 + 1 * (j 0).val = (j 0).val; rw [e40]; omega
    | ⟨1, _⟩ => show win2_4.index t (1 : Fin 2) * 64 + 1 * (j 1).val = (j 1).val; rw [e41]; omega
  · funext j
    show V c main_arg13 (((cfg2.win 5).blk t).view.emb j) = V c main_arg13 j
    refine congrArg (V c main_arg13) ?_
    funext a; apply Fin.ext
    match a with
    | ⟨0, _⟩ => show win2_5.index t (0 : Fin 2) * 64 + 1 * (j 0).val = (j 0).val; rw [e50]; omega
    | ⟨1, _⟩ => show win2_5.index t (1 : Fin 2) * 64 + 1 * (j 1).val = (j 1).val; rw [e51]; omega
  · funext j
    show V c main_v34 (((cfg2.win 6).blk t).view.emb j) = V c main_v34 j
    refine congrArg (V c main_v34) ?_
    funext a; apply Fin.ext
    match a with
    | ⟨0, _⟩ => show win2_6.index t (0 : Fin 2) * 1 + 1 * (j 0).val = (j 0).val; rw [e60]; omega
    | ⟨1, _⟩ => show win2_6.index t (1 : Fin 2) * 64 + 1 * (j 1).val = (j 1).val; rw [e61]; omega
  · show (y 1).val = win2_7.index t (1 : Fin 2) * 64 + 1 * (y 1).val
    rw [e71]; omega

/-- An index of the output array is in point `t`'s block iff each coordinate is in the block's range on its axis. -/
theorem mem_blk2 (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v35).slice (win2_7.rect t)).set ↔ _
  rw [View.set_slice_whole, Rect.mem_set_unit]
  exact Iff.rfl

/-- Every one of the ten row blocks is some point's. -/
theorem idx_onto2 : ∀ q : Fin 10, ∃ t : Fin cfg2.N, t.val = q.val :=
  (by decide +kernel : ∀ q : Fin 10, ∃ t : Fin grid2.N, t.val = q.val)

/-- Row `r` of the output is written back by point `r / 10000`: the ten blocks tile the rows. -/
theorem cover2 (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  obtain ⟨t, ht⟩ := idx_onto2 ⟨(i 0).val / 10000, by omega⟩
  have ht' : t.val = (i 0).val / 10000 := ht
  obtain ⟨-, -, -, -, -, -, -, -, -, -, -, -, -, -, e70, e71⟩ := idx_facts2 t
  refine ⟨t, flush2_7 t, ?_⟩
  rw [mem_blk2]
  intro a
  match a with
  | ⟨0, _⟩ => show win2_7.index t (0 : Fin 2) * 10000 ≤ (i 0).val ∧ (i 0).val < win2_7.index t (0 : Fin 2) * 10000 + 10000; rw [e70]; omega
  | ⟨1, _⟩ => show win2_7.index t (1 : Fin 2) * 64 ≤ (i 1).val ∧ (i 1).val < win2_7.index t (1 : Fin 2) * 64 + 64; rw [e71]; omega

/-- Region 2 (the second layer's update). -/
theorem region2 (c : Dev nD) :
    (dat2 (F := Ideal) V c).arrAt 7 cfg2.N
      = stageC (N := 100000) (V c main_v21) (V c main_v32) (V c main_arg1) (V c main_arg11) (vec01 (V c main_v33))
          (V c main_arg13) (vec01 (V c main_v34)) :=
  (dat2 V c).arrAt_eq_of_cover 7 _ (fun t _ => flushed2_eq V c t) cover2

end Cert.KernelIdeal.Blocks

end
-- ==== Proof.Host.lean ====
/-
  The kernel program's host lines between its regions, read back from any memory `Wk`.

  Before region 0: the edge list's two rows as index vectors (sources `main_v1`, destinations `main_v3`) and the first
  bias as a 1×64 row.  Between regions: the 128-column output's two halves (the latent rows, columns 0‥63, and their
  projection, columns 64‥127), the neighbour aggregation of the projection (`aggK`: the rows at the edges' sources,
  negative sources wrapped by the row count, summed into the edges' destinations), and two biases as rows.  Every
  other buffer keeps its contents.
-/
import proofs.«146292_j66013647339805_2_alg».proof.Proof.Gen.KernelIdeal.Launch
import Idealize.ShloMosaic.Lib.StableHlo.Run
import Idealize.ShloMosaic.PureOps.Ideal

noncomputable section

namespace Cert.KernelIdeal.HostLines

open Idealize.ShloMosaic Idealize.ShloMosaic.TcCoe Idealize.SL.Sem Idealize.ShloMosaic.StableHlo
open Cert.KernelIdeal Cert.KernelIdeal.Gen

/-- The neighbour aggregation as the host lines spell it, from the source and destination index vectors. -/
def aggK (src dst : (⟨S1600000, .i32⟩ : BufTy).Contents (Elt Ideal)) (Y : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 Y
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The left half (columns 0‥63) and the right half (columns 64‥127) of a 128-column array. -/
def left (A : (⟨S100000x128, .f32⟩ : BufTy).Contents (Elt Ideal)) : (⟨S100000x64, .f32⟩ : BufTy).Contents (Elt Ideal) := extractStridedSlice S100000x64 ![0, 0] A slices_S100000x128_S100000x64_0_0
def right (A : (⟨S100000x128, .f32⟩ : BufTy).Contents (Elt Ideal)) : (⟨S100000x64, .f32⟩ : BufTy).Contents (Elt Ideal) := extractStridedSlice S100000x64 ![0, 64] A slices_S100000x128_S100000x64_0_64
/-- Row `k` of the edge list as an index vector. -/
def edgeRow0 (E : (⟨S2x1600000, .i32⟩ : BufTy).Contents (Elt Ideal)) : (⟨S1600000, .i32⟩ : BufTy).Contents (Elt Ideal) :=
  shapeCast S1600000 (extractStridedSlice S1x1600000 ![0, 0] E slices_S2x1600000_S1x1600000_0_0) shapeCasts_S1x1600000_S1600000
def edgeRow1 (E : (⟨S2x1600000, .i32⟩ : BufTy).Contents (Elt Ideal)) : (⟨S1600000, .i32⟩ : BufTy).Contents (Elt Ideal) :=
  shapeCast S1600000 (extractStridedSlice S1x1600000 ![1, 0] E slices_S2x1600000_S1x1600000_1_0) shapeCasts_S1x1600000_S1600000
/-- A 64-entry bias as a 1×64 row. -/
def asRow (b : (⟨S64, .f32⟩ : BufTy).Contents (Elt Ideal)) : (⟨S1x64, .f32⟩ : BufTy).Contents (Elt Ideal) := shapeCast S1x64 b shapeCasts_S64_S1x64

variable (Wk : Valuation τ sig (Elt Ideal))

/-! ## Before region 0 -/
theorem s0_v1 : StableHlo.after (hostOps0 (F := Ideal)) Wk (Proc.devRef .tc main_v1) = edgeRow0 (Wk (Proc.devRef .tc main_arg2)) := by
  after_results_simp
  rfl
theorem s0_v3 : StableHlo.after (hostOps0 (F := Ideal)) Wk (Proc.devRef .tc main_v3) = edgeRow1 (Wk (Proc.devRef .tc main_arg2)) := by
  after_results_simp
  rfl
theorem s0_v4 : StableHlo.after (hostOps0 (F := Ideal)) Wk (Proc.devRef .tc main_v4) = asRow (Wk (Proc.devRef .tc main_arg4)) := by
  after_results_simp
  rfl
/-- The buffers the first stretch writes; every other buffer keeps its contents. -/
def written0 : List (Ref sig .tc) := [main_v0, main_v1, main_v2, main_v3, main_v4]
theorem s0_keep (b : Ref sig .tc) (hb : b ∉ written0) :
    StableHlo.after (hostOps0 (F := Ideal)) Wk (Proc.devRef .tc b) = Wk (Proc.devRef .tc b) := by
  refine StableHlo.after_of_writes_sub (W := written0) hostOps0 Wk ?_ hb
  simp only [hostOps0, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-! ## Between regions 0 and 1 -/
theorem s1_v6 : StableHlo.after (hostOps1 (F := Ideal)) Wk (Proc.devRef .tc main_v6) = left (Wk (Proc.devRef .tc main_v5)) := by
  after_results_simp
  rfl
theorem s1_v17 : StableHlo.after (hostOps1 (F := Ideal)) Wk (Proc.devRef .tc main_v17)
    = aggK (Wk (Proc.devRef .tc main_v1)) (Wk (Proc.devRef .tc main_v3)) (right (Wk (Proc.devRef .tc main_v5))) := by
  after_results_simp
  rfl
theorem s1_v18 : StableHlo.after (hostOps1 (F := Ideal)) Wk (Proc.devRef .tc main_v18) = asRow (Wk (Proc.devRef .tc main_arg7)) := by
  after_results_simp
  rfl
theorem s1_v19 : StableHlo.after (hostOps1 (F := Ideal)) Wk (Proc.devRef .tc main_v19) = asRow (Wk (Proc.devRef .tc main_arg9)) := by
  after_results_simp
  rfl
def written1 : List (Ref sig .tc) :=
  [main_v6, main_v7, main_c, main_v8, main_v9, main_c_0, main_v10, main_v11, main_v12, main_v13, main_v14, main_cst, main_v15, main_v16,
   main_v17, main_v18, main_v19]
theorem s1_keep (b : Ref sig .tc) (hb : b ∉ written1) :
    StableHlo.after (hostOps1 (F := Ideal)) Wk (Proc.devRef .tc b) = Wk (Proc.devRef .tc b) := by
  refine StableHlo.after_of_writes_sub (W := written1) hostOps1 Wk ?_ hb
  simp only [hostOps1, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-! ## Between regions 1 and 2 -/
theorem s2_v21 : StableHlo.after (hostOps2 (F := Ideal)) Wk (Proc.devRef .tc main_v21) = left (Wk (Proc.devRef .tc main_v20)) := by
  after_results_simp
  rfl
theorem s2_v32 : StableHlo.after (hostOps2 (F := Ideal)) Wk (Proc.devRef .tc main_v32)
    = aggK (Wk (Proc.devRef .tc main_v1)) (Wk (Proc.devRef .tc main_v3)) (right (Wk (Proc.devRef .tc main_v20))) := by
  after_results_simp
  rfl
theorem s2_v33 : StableHlo.after (hostOps2 (F := Ideal)) Wk (Proc.devRef .tc main_v33) = asRow (Wk (Proc.devRef .tc main_arg12)) := by
  after_results_simp
  rfl
theorem s2_v34 : StableHlo.after (hostOps2 (F := Ideal)) Wk (Proc.devRef .tc main_v34) = asRow (Wk (Proc.devRef .tc main_arg14)) := by
  after_results_simp
  rfl
def written2 : List (Ref sig .tc) :=
  [main_v21, main_v22, main_c_1, main_v23, main_v24, main_c_2, main_v25, main_v26, main_v27, main_v28, main_v29, main_cst_3, main_v30,
   main_v31, main_v32, main_v33, main_v34]
theorem s2_keep (b : Ref sig .tc) (hb : b ∉ written2) :
    StableHlo.after (hostOps2 (F := Ideal)) Wk (Proc.devRef .tc b) = Wk (Proc.devRef .tc b) := by
  refine StableHlo.after_of_writes_sub (W := written2) hostOps2 Wk ?_ hb
  simp only [hostOps2, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

end Cert.KernelIdeal.HostLines

end
-- ==== Proof.Chain.lean ====
/-
  The kernel program's result, read back through its run's segment boundaries.

  The run alternates host lines and regions.  At each boundary the buffers that matter hold: after the first host
  lines, the edge list's rows and the first bias as a row; after region 0, the first stage's array `arrA`; after the
  next host lines, its two halves, the aggregation of its right half, and two biases as rows; after region 1, the
  middle stage's array `arrB` of those; then the same once more, and region 2 leaves the last stage's array.  Every
  argument array keeps its launch contents throughout (a region reads it through an input window or not at all).
-/
import proofs.«146292_j66013647339805_2_alg».proof.Proof.KRun
import proofs.«146292_j66013647339805_2_alg».proof.Proof.Blocks
import proofs.«146292_j66013647339805_2_alg».proof.Proof.Host

set_option maxRecDepth 16384

noncomputable section

namespace Cert.KernelIdeal.Chain

open Idealize.ShloMosaic Idealize.ShloMosaic.TcCoe Idealize.SL.Sem
open Cert.KernelIdeal Cert.KernelIdeal.Gen Cert.KernelIdeal.HostLines Cert.Spec

variable (m : (ℓ : Loc nD τ sig) → Buf (Elt Ideal) ℓ) (ρ : Dev nD → PrngReg) (c : Dev nD)

/-- The first stage's array of the launch arguments. -/
def arrA : (⟨S100000x128, .f32⟩ : BufTy).Contents (Elt Ideal) :=
  stageA (N := 100000) (m ((c : Thread nD τ).loc main_arg0)) (m ((c : Thread nD τ).loc main_arg3)) (vec01 (asRow (m ((c : Thread nD τ).loc main_arg4)))) (m ((c : Thread nD τ).loc main_arg5))
/-- The edge list's source and destination rows. -/
def src : (⟨S1600000, .i32⟩ : BufTy).Contents (Elt Ideal) := edgeRow0 (m ((c : Thread nD τ).loc main_arg2))
def dst : (⟨S1600000, .i32⟩ : BufTy).Contents (Elt Ideal) := edgeRow1 (m ((c : Thread nD τ).loc main_arg2))
/-- The middle stage's array. -/
def arrB : (⟨S100000x128, .f32⟩ : BufTy).Contents (Elt Ideal) :=
  stageB (N := 100000) (left (arrA m c)) (aggK (src m c) (dst m c) (right (arrA m c))) (m ((c : Thread nD τ).loc main_arg1)) (m ((c : Thread nD τ).loc main_arg6))
    (vec01 (asRow (m ((c : Thread nD τ).loc main_arg7)))) (m ((c : Thread nD τ).loc main_arg8)) (vec01 (asRow (m ((c : Thread nD τ).loc main_arg9)))) (m ((c : Thread nD τ).loc main_arg10))
/-- The last stage's array: the program's result. -/
def arrC : (⟨S100000x64, .f32⟩ : BufTy).Contents (Elt Ideal) :=
  stageC (N := 100000) (left (arrB m c)) (aggK (src m c) (dst m c) (right (arrB m c))) (m ((c : Thread nD τ).loc main_arg1)) (m ((c : Thread nD τ).loc main_arg11))
    (vec01 (asRow (m ((c : Thread nD τ).loc main_arg12)))) (m ((c : Thread nD τ).loc main_arg13)) (vec01 (asRow (m ((c : Thread nD τ).loc main_arg14))))

/-! ## After the first host lines -/

theorem W1_keep (b : Ref sig .tc) (hb : b ∉ written0) : W1 m ρ c (Proc.devRef .tc b) = m ((c : Thread nD τ).loc b) :=
  s0_keep (W0 m ρ c) b hb
theorem W1_v1 : W1 m ρ c (Proc.devRef .tc main_v1) = src m c := s0_v1 (W0 m ρ c)
theorem W1_v3 : W1 m ρ c (Proc.devRef .tc main_v3) = dst m c := s0_v3 (W0 m ρ c)
theorem W1_v4 : W1 m ρ c (Proc.devRef .tc main_v4) = asRow (m ((c : Thread nD τ).loc main_arg4)) := s0_v4 (W0 m ρ c)

/-! ## After region 0 -/

theorem W2_keep (b : Ref sig .tc) (hne : ∀ w, Pipeline.arrRef spec0 w ≠ b) (hb : b ∉ written0) :
    W2 m ρ c (Proc.devRef .tc b) = m ((c : Thread nD τ).loc b) :=
  (W2_of_ne m ρ c b hne).trans (W1_keep m ρ c b hb)
theorem W2_v1 : W2 m ρ c (Proc.devRef .tc main_v1) = src m c := (W2_of_ne m ρ c main_v1 (by decide)).trans (W1_v1 m ρ c)
theorem W2_v3 : W2 m ρ c (Proc.devRef .tc main_v3) = dst m c := (W2_of_ne m ρ c main_v3 (by decide)).trans (W1_v3 m ρ c)
theorem W2_v5 : W2 m ρ c (Proc.devRef .tc main_v5) = arrA m c := by
  refine (W2_arr m ρ c 4).trans ?_
  rw [Blocks.region0 (V1 m ρ) c]
  show stageA (N := 100000) (W1 m ρ c (Proc.devRef .tc main_arg0)) (W1 m ρ c (Proc.devRef .tc main_arg3)) (vec01 (W1 m ρ c (Proc.devRef .tc main_v4)))
    (W1 m ρ c (Proc.devRef .tc main_arg5)) = _
  rw [W1_keep m ρ c main_arg0 (by decide), W1_keep m ρ c main_arg3 (by decide), W1_v4, W1_keep m ρ c main_arg5 (by decide)]
  rfl

/-! ## After the second host lines -/

theorem W3_keep (b : Ref sig .tc) (hne : ∀ w, Pipeline.arrRef spec0 w ≠ b) (hb0 : b ∉ written0) (hb1 : b ∉ written1) :
    W3 m ρ c (Proc.devRef .tc b) = m ((c : Thread nD τ).loc b) :=
  (s1_keep (W2 m ρ c) b hb1).trans (W2_keep m ρ c b hne hb0)
theorem W3_v1 : W3 m ρ c (Proc.devRef .tc main_v1) = src m c := (s1_keep (W2 m ρ c) main_v1 (by decide)).trans (W2_v1 m ρ c)
theorem W3_v3 : W3 m ρ c (Proc.devRef .tc main_v3) = dst m c := (s1_keep (W2 m ρ c) main_v3 (by decide)).trans (W2_v3 m ρ c)
theorem W3_v6 : W3 m ρ c (Proc.devRef .tc main_v6) = left (arrA m c) := (s1_v6 (W2 m ρ c)).trans (by rw [W2_v5])
theorem W3_v17 : W3 m ρ c (Proc.devRef .tc main_v17) = aggK (src m c) (dst m c) (right (arrA m c)) :=
  (s1_v17 (W2 m ρ c)).trans (by rw [W2_v1, W2_v3, W2_v5])
theorem W3_v18 : W3 m ρ c (Proc.devRef .tc main_v18) = asRow (m ((c : Thread nD τ).loc main_arg7)) :=
  (s1_v18 (W2 m ρ c)).trans (by rw [W2_keep m ρ c main_arg7 (by decide) (by decide)])
theorem W3_v19 : W3 m ρ c (Proc.devRef .tc main_v19) = asRow (m ((c : Thread nD τ).loc main_arg9)) :=
  (s1_v19 (W2 m ρ c)).trans (by rw [W2_keep m ρ c main_arg9 (by decide) (by decide)])

/-! ## After region 1 -/

theorem W4_v20 : W4 m ρ c (Proc.devRef .tc main_v20) = arrB m c := by
  refine (W4_arr m ρ c 8).trans ?_
  rw [Blocks.region1 (V3 m ρ) c]
  show stageB (N := 100000) (W3 m ρ c (Proc.devRef .tc main_v6)) (W3 m ρ c (Proc.devRef .tc main_v17)) (W3 m ρ c (Proc.devRef .tc main_arg1))
    (W3 m ρ c (Proc.devRef .tc main_arg6)) (vec01 (W3 m ρ c (Proc.devRef .tc main_v18))) (W3 m ρ c (Proc.devRef .tc main_arg8))
    (vec01 (W3 m ρ c (Proc.devRef .tc main_v19))) (W3 m ρ c (Proc.devRef .tc main_arg10)) = _
  rw [W3_v6, W3_v17, W3_v18, W3_v19, W3_keep m ρ c main_arg1 (by decide) (by decide) (by decide),
    W3_keep m ρ c main_arg6 (by decide) (by decide) (by decide), W3_keep m ρ c main_arg8 (by decide) (by decide) (by decide),
    W3_keep m ρ c main_arg10 (by decide) (by decide) (by decide)]
  rfl
theorem W4_v1 : W4 m ρ c (Proc.devRef .tc main_v1) = src m c := (W4_of_ne m ρ c main_v1 (by decide)).trans (W3_v1 m ρ c)
theorem W4_v3 : W4 m ρ c (Proc.devRef .tc main_v3) = dst m c := (W4_of_ne m ρ c main_v3 (by decide)).trans (W3_v3 m ρ c)
/-- An argument no window of region 1 stages. -/
theorem W4_keep (b : Ref sig .tc) (hne1 : ∀ w, Pipeline.arrRef spec1 w ≠ b) (hne : ∀ w, Pipeline.arrRef spec0 w ≠ b)
    (hb0 : b ∉ written0) (hb1 : b ∉ written1) : W4 m ρ c (Proc.devRef .tc b) = m ((c : Thread nD τ).loc b) :=
  (W4_of_ne m ρ c b hne1).trans (W3_keep m ρ c b hne hb0 hb1)
/-- The identity embedding, which region 1 stages through its input window 2 and leaves in place. -/
theorem W4_arg1 : W4 m ρ c (Proc.devRef .tc main_arg1) = (m ((c : Thread nD τ).loc main_arg1)) :=
  ((W4_arr m ρ c 2).trans (((dat1 (V3 m ρ) c).arrAt_in 2 rfl _).trans (A_eq1 (V3 m ρ) c 2))).trans
    (W3_keep m ρ c main_arg1 (by decide) (by decide) (by decide))

/-! ## After the third host lines -/

theorem W5_v21 : W5 m ρ c (Proc.devRef .tc main_v21) = left (arrB m c) := (s2_v21 (W4 m ρ c)).trans (by rw [W4_v20])
theorem W5_v32 : W5 m ρ c (Proc.devRef .tc main_v32) = aggK (src m c) (dst m c) (right (arrB m c)) :=
  (s2_v32 (W4 m ρ c)).trans (by rw [W4_v1, W4_v3, W4_v20])
theorem W5_v33 : W5 m ρ c (Proc.devRef .tc main_v33) = asRow (m ((c : Thread nD τ).loc main_arg12)) :=
  (s2_v33 (W4 m ρ c)).trans (by rw [W4_keep m ρ c main_arg12 (by decide) (by decide) (by decide) (by decide)])
theorem W5_v34 : W5 m ρ c (Proc.devRef .tc main_v34) = asRow (m ((c : Thread nD τ).loc main_arg14)) :=
  (s2_v34 (W4 m ρ c)).trans (by rw [W4_keep m ρ c main_arg14 (by decide) (by decide) (by decide) (by decide)])
theorem W5_arg1 : W5 m ρ c (Proc.devRef .tc main_arg1) = (m ((c : Thread nD τ).loc main_arg1)) :=
  (s2_keep (W4 m ρ c) main_arg1 (by decide)).trans (W4_arg1 m ρ c)
theorem W5_keep (b : Ref sig .tc) (hb2 : b ∉ written2) (hne1 : ∀ w, Pipeline.arrRef spec1 w ≠ b) (hne : ∀ w, Pipeline.arrRef spec0 w ≠ b)
    (hb0 : b ∉ written0) (hb1 : b ∉ written1) : W5 m ρ c (Proc.devRef .tc b) = m ((c : Thread nD τ).loc b) :=
  (s2_keep (W4 m ρ c) b hb2).trans (W4_keep m ρ c b hne1 hne hb0 hb1)

/-! ## After region 2: the result -/

theorem W6_v35 : W6 m ρ c (Proc.devRef .tc main_v35) = arrC m c := by
  refine (W6_arr m ρ c 7).trans ?_
  rw [Blocks.region2 (V5 m ρ) c]
  show stageC (N := 100000) (W5 m ρ c (Proc.devRef .tc main_v21)) (W5 m ρ c (Proc.devRef .tc main_v32)) (W5 m ρ c (Proc.devRef .tc main_arg1))
    (W5 m ρ c (Proc.devRef .tc main_arg11)) (vec01 (W5 m ρ c (Proc.devRef .tc main_v33))) (W5 m ρ c (Proc.devRef .tc main_arg13))
    (vec01 (W5 m ρ c (Proc.devRef .tc main_v34))) = _
  rw [W5_v21, W5_v32, W5_v33, W5_v34, W5_arg1,
    W5_keep m ρ c main_arg11 (by decide) (by decide) (by decide) (by decide) (by decide),
    W5_keep m ρ c main_arg13 (by decide) (by decide) (by decide) (by decide) (by decide)]
  rfl

/-- The kernel program's run with its result at the last stage's array of the launch arguments. -/
theorem run : θ_run defs (onTc (τ := τ) (main (F := Ideal))) ⟨m, fun _ => 0, ρ⟩ (fun r => ∀ c : Dev nD,
      r.2.mem ((c.tc : Thread nD τ).loc main_v35) = arrC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (W6_v35 m ρ c), (h c).2⟩) (KRun.run_named (F := Ideal) m ρ)

end Cert.KernelIdeal.Chain

end
-- ==== Proof.Ref.lean ====
/-
  The reference's stages, row by row, are the specification's row-wise maps.

  Read at an index `(r, c)`: the normalised affine image of feature row `r` (`val_main_v15`), its projection
  (`val_main_v16`), the first layer's update of that row from the aggregated-neighbour row (`val_main_v51`), its
  projection (`val_main_v52`) and the second layer's update (`val_main_v87`).  A host dot-product contracts one axis
  as a plain sum, the host's row sum is its initial zero plus the sum over the row, and the host's square root and
  quotient are the extended reals' own.  The two aggregations (a gather of source rows scatter-added at their
  destination rows) are ONE function `agg` of the edge list and the projected rows, never opened.
-/
import proofs.«146292_j66013647339805_2_alg».proof.Proof.RefReadP
import proofs.«146292_j66013647339805_2_alg».proof.Proof.Spec
import proofs.«146292_j66013647339805_2_alg».proof.Proof.LibPlainDot

noncomputable section

namespace Cert.ReferenceIdeal.Rows

open Idealize.ShloMosaic Idealize.ShloMosaic.ValueIdx Cert.ReferenceIdeal Cert.ReferenceIdeal.ReadP Cert.Spec

/-- The neighbour aggregation: the rows of `Y` at the edges' sources, summed into the edges' destinations. -/
def agg (E : (⟨S2x1600000, .i32⟩ : BufTy).Contents (Elt Ideal)) (Y : (⟨S100000x64, .f32⟩ : BufTy).Contents (Elt Ideal)) : (⟨S100000x64, .f32⟩ : BufTy).Contents (Elt Ideal) :=
  Host.scatterAdd (F := Ideal) (φ := .f32) scatter_S100000x64_S1600000x1_S1600000x64_1_0_0_1 (val_main_v24 (F := Ideal)) (val_main_v25 (F := Ideal) E)
    (Host.gather gather_S100000x64_S1600000x1_S1600000x64_1_0_n_n_0_1_164 Y (val_main_v22 (F := Ideal) E))

/-- The first aggregation is `agg` of the first projection. -/
theorem v26_eq (x0 : (⟨S100000x128, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v26 (F := Ideal) x0 x2 x3 x4 x5 = agg x2 (val_main_v16 (F := Ideal) x0 x3 x4 x5) := by
  unfold val_main_v26 val_main_v23 agg
  rfl

/-! The second aggregation's own index stages are the first's, operation by operation. -/

theorem v60_eq : val_main_v60 (F := Ideal) = val_main_v24 (F := Ideal) := rfl

theorem v61_eq (x2 : (⟨S2x1600000, .i32⟩ : BufTy).Contents (Elt Ideal)) :
    val_main_v61 (F := Ideal) x2 = val_main_v25 (F := Ideal) x2 := rfl

theorem v58_eq (x2 : (⟨S2x1600000, .i32⟩ : BufTy).Contents (Elt Ideal)) :
    val_main_v58 (F := Ideal) x2 = val_main_v22 (F := Ideal) x2 := rfl

/-- The second aggregation is `agg` of the second projection. -/
theorem v62_eq (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v62 (F := Ideal) x0 x1 x2 x3 x4 x5 x6 x7 x8 x9 x10 = agg x2 (val_main_v52 (F := Ideal) x0 x1 x2 x3 x4 x5 x6 x7 x8 x9 x10) := by
  unfold val_main_v62 val_main_v59 agg
  rw [v60_eq, v61_eq, v58_eq]

/-! ## Composed index maps, by coordinates -/

theorem lidx4 (r : Fin 100000) (c : Fin 64) (k : Fin 128) : lidx_main_v4 (ix2 r c) k = ix2 r k :=
  funext fun a => by match a with | ⟨0, _⟩ => rfl | ⟨1, _⟩ => rfl
theorem ridx4 (r : Fin 100000) (c : Fin 64) (k : Fin 128) : ridx_main_v4 (ix2 r c) k = ix2 k c :=
  funext fun a => by match a with | ⟨0, _⟩ => rfl | ⟨1, _⟩ => rfl
theorem idx5_6 (r : Fin 100000) (c : Fin 64) : idx_main_v5 (idx_main_v6 (ix2 r c)) = ix1 c :=
  funext fun a => by match a with | ⟨0, _⟩ => rfl
theorem idx10_14 (r : Fin 100000) (c : Fin 64) : idx_main_v10 (idx_main_v14 (ix2 r c)) = ix1 r :=
  funext fun a => by match a with | ⟨0, _⟩ => rfl
theorem idx9 (r : Fin 100000) (k : Fin 64) : idx_main_v9 (ix1 r) k = ix2 r k :=
  funext fun a => by match a with | ⟨0, _⟩ => rfl | ⟨1, _⟩ => rfl
theorem lidx16 (r : Fin 100000) (c k : Fin 64) : lidx_main_v16 (ix2 r c) k = ix2 r k :=
  funext fun a => by match a with | ⟨0, _⟩ => rfl | ⟨1, _⟩ => rfl
theorem ridx16 (r : Fin 100000) (c k : Fin 64) : ridx_main_v16 (ix2 r c) k = ix2 k c :=
  funext fun a => by match a with | ⟨0, _⟩ => rfl | ⟨1, _⟩ => rfl

/-! ## The first stage -/

/-- The affine image of feature row `r`, at column `c`. -/
theorem ref_v7 (x0 : (⟨S100000x128, .f32⟩ : BufTy).Contents (Elt Ideal)) (x3 : (⟨S128x64, .f32⟩ : BufTy).Contents (Elt Ideal)) (x4 : (⟨S64, .f32⟩ : BufTy).Contents (Elt Ideal)) (r : Fin 100000) (c : Fin 64) :
    val_main_v7 (F := Ideal) x0 x3 x4 (ix2 r c) = lin (rows x0 r) (cur x3) (vec1 x4) c := by
  rw [val_main_v7_apply, val_main_v6_apply, val_main_v5_apply, val_main_v4_apply, idx5_6]
  simp only [lidx4, ridx4]
  rfl

theorem ref_v15 (x0 : (⟨S100000x128, .f32⟩ : BufTy).Contents (Elt Ideal)) (x3 : (⟨S128x64, .f32⟩ : BufTy).Contents (Elt Ideal)) (x4 : (⟨S64, .f32⟩ : BufTy).Contents (Elt Ideal)) (r : Fin 100000) (c : Fin 64) :
    val_main_v15 (F := Ideal) x0 x3 x4 (ix2 r c) = unit (lin (rows x0 r) (cur x3) (vec1 x4)) c := by
  rw [val_main_v15_apply, val_main_v14_apply, val_main_v13_apply, val_main_v12_apply, val_main_v11_apply,
    val_main_v10_apply, val_main_v9_apply, idx10_14, ref_v7]
  simp only [idx9, val_main_v8_apply, ref_v7]
  unfold unit
  simp only [val_main_cst_apply, val_main_cst_0_apply, Ideal.hostDivf_def, Ideal.hostUnary_sqrt_def, Ideal.maximumf_def,
    Ideal.mulf_def, epsW]
  rw [show (FloatOps.ofBits (F := Ideal) .f32 0x00000000#32 : EReal) = 0 from Ideal.ofBits_zero_f32, zero_add]
  rfl

theorem ref_v16 (x0 : (⟨S100000x128, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (r : Fin 100000) (c : Fin 64) :
    val_main_v16 (F := Ideal) x0 x3 x4 x5 (ix2 r c) = proj (unit (lin (rows x0 r) (cur x3) (vec1 x4))) (cur x5) c := by
  rw [val_main_v16_apply]
  simp only [lidx16, ridx16, ref_v15]
  rfl

/-! ## The leaky rectifier: five host operations on one entry -/

/-- The rectifier, as the host spells it on one entry: a selection by the comparison with the zero word between the
    entry and the slope word times the entry. -/
theorem leaky_read (x : EReal) :
    Scalar.select (FloatOps.cmpf (F := Ideal) (φ := .f32) .oge x (FloatOps.ofBits .f32 0x00000000#32)) x
      (FloatOps.mulf (F := Ideal) (φ := .f32) (FloatOps.ofBits .f32 0x3C23D70A#32) x) = leaky x := rfl

theorem leaky_v31 (x0 : (⟨S100000x128, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (i : S100000x64.Idx) :
    val_main_v31 (F := Ideal) x0 x2 x3 x4 x5 i = leaky (val_main_v26 (F := Ideal) x0 x2 x3 x4 x5 i) := by
  rw [val_main_v31_apply, val_main_v28_apply, val_main_v30_apply, val_main_v27_apply, val_main_v29_apply,
    val_main_cst_3_apply, val_main_cst_4_apply]
  exact leaky_read _

theorem leaky_v40 (x0 : (⟨S100000x128, .f32⟩ : BufTy).Contents (Elt Ideal)) (x3 : (⟨S128x64, .f32⟩ : BufTy).Contents (Elt Ideal)) (x4 : (⟨S64, .f32⟩ : BufTy).Contents (Elt Ideal)) (x6 : (⟨S64x64, .f32⟩ : BufTy).Contents (Elt Ideal)) (x7 : (⟨S64, .f32⟩ : BufTy).Contents (Elt Ideal)) (i : S100000x64.Idx) :
    val_main_v40 (F := Ideal) x0 x3 x4 x6 x7 i = leaky (val_main_v35 (F := Ideal) x0 x3 x4 x6 x7 i) := by
  rw [val_main_v40_apply, val_main_v37_apply, val_main_v39_apply, val_main_v36_apply, val_main_v38_apply,
    val_main_cst_5_apply, val_main_cst_6_apply]
  exact leaky_read _

theorem leaky_v51 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (i : S100000x64.Idx) :
    val_main_v51 (F := Ideal) x0 x1 x2 x3 x4 x5 x6 x7 x8 x9 i = leaky (val_main_v46 (F := Ideal) x0 x1 x2 x3 x4 x5 x6 x7 x8 x9 i) := by
  rw [val_main_v51_apply, val_main_v48_apply, val_main_v50_apply, val_main_v47_apply, val_main_v49_apply,
    val_main_cst_7_apply, val_main_cst_8_apply]
  exact leaky_read _

theorem leaky_v67 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (i : S100000x64.Idx) :
    val_main_v67 (F := Ideal) x0 x1 x2 x3 x4 x5 x6 x7 x8 x9 x10 i = leaky (val_main_v62 (F := Ideal) x0 x1 x2 x3 x4 x5 x6 x7 x8 x9 x10 i) := by
  rw [val_main_v67_apply, val_main_v64_apply, val_main_v66_apply, val_main_v63_apply, val_main_v65_apply,
    val_main_cst_12_apply, val_main_cst_13_apply]
  exact leaky_read _

theorem leaky_v76 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x11 : (⟨S64x64, .f32⟩ : BufTy).Contents (Elt Ideal)) (x12 : (⟨S64, .f32⟩ : BufTy).Contents (Elt Ideal)) (i : S100000x64.Idx) :
    val_main_v76 (F := Ideal) x0 x1 x2 x3 x4 x5 x6 x7 x8 x9 x11 x12 i = leaky (val_main_v71 (F := Ideal) x0 x1 x2 x3 x4 x5 x6 x7 x8 x9 x11 x12 i) := by
  rw [val_main_v76_apply, val_main_v73_apply, val_main_v75_apply, val_main_v72_apply, val_main_v74_apply,
    val_main_cst_14_apply, val_main_cst_15_apply]
  exact leaky_read _

theorem leaky_v87 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (i : S100000x64.Idx) :
    val_main_v87 (F := Ideal) x0 x1 x2 x3 x4 x5 x6 x7 x8 x9 x10 x11 x12 x13 x14 i = leaky (val_main_v82 (F := Ideal) x0 x1 x2 x3 x4 x5 x6 x7 x8 x9 x10 x11 x12 x13 x14 i) := by
  rw [val_main_v87_apply, val_main_v84_apply, val_main_v86_apply, val_main_v83_apply, val_main_v85_apply,
    val_main_cst_16_apply, val_main_cst_17_apply]
  exact leaky_read _

/-! ## The layers' index maps, by coordinates -/

theorem lidx32 (r : Fin 100000) (c k : Fin 64) : lidx_main_v32 (ix2 r c) k = ix2 r k :=
  funext fun a => by match a with | ⟨0, _⟩ => rfl | ⟨1, _⟩ => rfl
theorem ridx32 (r : Fin 100000) (c k : Fin 64) : ridx_main_v32 (ix2 r c) k = ix2 k c :=
  funext fun a => by match a with | ⟨0, _⟩ => rfl | ⟨1, _⟩ => rfl
theorem lidx42 (r : Fin 100000) (c k : Fin 64) : lidx_main_v42 (ix2 r c) k = ix2 r k :=
  funext fun a => by match a with | ⟨0, _⟩ => rfl | ⟨1, _⟩ => rfl
theorem ridx42 (r : Fin 100000) (c k : Fin 64) : ridx_main_v42 (ix2 r c) k = ix2 k c :=
  funext fun a => by match a with | ⟨0, _⟩ => rfl | ⟨1, _⟩ => rfl
theorem lidx52 (r : Fin 100000) (c k : Fin 64) : lidx_main_v52 (ix2 r c) k = ix2 r k :=
  funext fun a => by match a with | ⟨0, _⟩ => rfl | ⟨1, _⟩ => rfl
theorem ridx52 (r : Fin 100000) (c k : Fin 64) : ridx_main_v52 (ix2 r c) k = ix2 k c :=
  funext fun a => by match a with | ⟨0, _⟩ => rfl | ⟨1, _⟩ => rfl
theorem lidx68 (r : Fin 100000) (c k : Fin 64) : lidx_main_v68 (ix2 r c) k = ix2 r k :=
  funext fun a => by match a with | ⟨0, _⟩ => rfl | ⟨1, _⟩ => rfl
theorem ridx68 (r : Fin 100000) (c k : Fin 64) : ridx_main_v68 (ix2 r c) k = ix2 k c :=
  funext fun a => by match a with | ⟨0, _⟩ => rfl | ⟨1, _⟩ => rfl
theorem lidx78 (r : Fin 100000) (c k : Fin 64) : lidx_main_v78 (ix2 r c) k = ix2 r k :=
  funext fun a => by match a with | ⟨0, _⟩ => rfl | ⟨1, _⟩ => rfl
theorem ridx78 (r : Fin 100000) (c k : Fin 64) : ridx_main_v78 (ix2 r c) k = ix2 k c :=
  funext fun a => by match a with | ⟨0, _⟩ => rfl | ⟨1, _⟩ => rfl
theorem idx33_34 (r : Fin 100000) (c : Fin 64) : idx_main_v33 (idx_main_v34 (ix2 r c)) = ix1 c :=
  funext fun a => by match a with | ⟨0, _⟩ => rfl
theorem idx43_44 (r : Fin 100000) (c : Fin 64) : idx_main_v43 (idx_main_v44 (ix2 r c)) = ix1 c :=
  funext fun a => by match a with | ⟨0, _⟩ => rfl
theorem idx69_70 (r : Fin 100000) (c : Fin 64) : idx_main_v69 (idx_main_v70 (ix2 r c)) = ix1 c :=
  funext fun a => by match a with | ⟨0, _⟩ => rfl
theorem idx79_80 (r : Fin 100000) (c : Fin 64) : idx_main_v79 (idx_main_v80 (ix2 r c)) = ix1 c :=
  funext fun a => by match a with | ⟨0, _⟩ => rfl

/-! ## One layer on one entry -/

/-- One layer on one entry, as the host spells it: the two sums, their bias entries, the identity entry and the three
    rectifiers are the specification's `combine` of the operands' rows. -/
theorem combine_read (X H E : (⟨S100000x64, .f32⟩ : BufTy).Contents (Elt Ideal)) (Wl Wg : (⟨S64x64, .f32⟩ : BufTy).Contents (Elt Ideal))
    (bl bg : (⟨S64, .f32⟩ : BufTy).Contents (Elt Ideal)) (r : Fin 100000) (c : Fin 64) :
    leaky (FloatOps.addf (F := Ideal) (φ := .f32)
        (FloatOps.addf (F := Ideal) (φ := .f32) (∑ k : Fin 64, leaky (H (ix2 r k)) * Wg (ix2 k c)) (bg (ix1 c)))
        (FloatOps.addf (F := Ideal) (φ := .f32)
          (leaky (FloatOps.addf (F := Ideal) (φ := .f32) (∑ k : Fin 64, X (ix2 r k) * Wl (ix2 k c)) (bl (ix1 c))))
          (E (ix2 r c))))
      = combine (rows X r) (rows H r) (rows E r) (cur Wl) (vec1 bl) (cur Wg) (vec1 bg) c := rfl

/-! ## The first layer -/

theorem ref_v51 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 100000) (c : Fin 64) :
    val_main_v51 (F := Ideal) x0 x1 x2 x3 x4 x5 x6 x7 x8 x9 (ix2 r c)
      = combine (rows (val_main_v15 (F := Ideal) x0 x3 x4) r) (rows (val_main_v26 (F := Ideal) x0 x2 x3 x4 x5) r) (rows x1 r)
          (cur x6) (vec1 x7) (cur x8) (vec1 x9) c := by
  rw [leaky_v51, val_main_v46_apply, val_main_v45_apply, val_main_v41_apply, leaky_v40, val_main_v35_apply,
    val_main_v44_apply, val_main_v43_apply, val_main_v34_apply, val_main_v33_apply, val_main_v42_apply,
    val_main_v32_apply, idx33_34, idx43_44]
  simp only [lidx32, ridx32, lidx42, ridx42, leaky_v31]
  exact combine_read _ _ _ _ _ _ _ r c

theorem ref_v52 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (r : Fin 100000) (c : Fin 64) :
    val_main_v52 (F := Ideal) x0 x1 x2 x3 x4 x5 x6 x7 x8 x9 x10 (ix2 r c)
      = proj (combine (rows (val_main_v15 (F := Ideal) x0 x3 x4) r) (rows (val_main_v26 (F := Ideal) x0 x2 x3 x4 x5) r) (rows x1 r)
          (cur x6) (vec1 x7) (cur x8) (vec1 x9)) (cur x10) c := by
  rw [val_main_v52_apply]
  simp only [lidx52, ridx52, ref_v51]
  rfl

/-! ## The second layer -/

theorem ref_v87 (x0 : (⟨S100000x128, .f32⟩ : BufTy).Contents (Elt Ideal)) (x1 : (⟨S100000x64, .f32⟩ : BufTy).Contents (Elt Ideal)) (x2 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (r : Fin 100000) (c : Fin 64) :
    val_main_v87 (F := Ideal) x0 x1 x2 x3 x4 x5 x6 x7 x8 x9 x10 x11 x12 x13 x14 (ix2 r c)
      = combine (rows (val_main_v51 (F := Ideal) x0 x1 x2 x3 x4 x5 x6 x7 x8 x9) r) (rows (val_main_v62 (F := Ideal) x0 x1 x2 x3 x4 x5 x6 x7 x8 x9 x10) r) (rows x1 r)
          (cur x11) (vec1 x12) (cur x13) (vec1 x14) c := by
  rw [leaky_v87, val_main_v82_apply, val_main_v81_apply, val_main_v77_apply, leaky_v76, val_main_v71_apply,
    val_main_v80_apply, val_main_v79_apply, val_main_v70_apply, val_main_v69_apply, val_main_v78_apply,
    val_main_v68_apply, idx69_70, idx79_80]
  simp only [lidx68, ridx68, lidx78, ridx78, leaky_v67]
  exact combine_read _ _ _ _ _ _ _ r c

end Cert.ReferenceIdeal.Rows

end
-- ==== Proof.Bridge.lean ====
/-
  The kernel program's boundary arrays, stage by stage, are the reference's stages.

  The left half (columns 0‥63) of the first region's array is the reference's normalised affine image and its right
  half (columns 64‥127) that image's projection; likewise the second region's halves are the first layer's update and
  its projection, and the third region's array is the second layer's update.  The host lines' neighbour
  aggregation from the edge list's two rows is the reference's aggregation, operation for operation, and a 64-entry
  bias cast to a 1×64 row has the bias's entries.
-/
import proofs.«146292_j66013647339805_2_alg».proof.Proof.Ref
import proofs.«146292_j66013647339805_2_alg».proof.Proof.Host
import Idealize.ShloMosaic.Lib.ValueLayout

noncomputable section

namespace Cert.Bridge

open Idealize.ShloMosaic Idealize.ShloMosaic.ValueIdx Cert.Spec
open Cert.KernelIdeal.HostLines Cert.ReferenceIdeal.ReadP Cert.ReferenceIdeal.Rows

/-- A bias cast to a 1×64 row reads the bias. -/
theorem vec01_asRow (b : (⟨Cert.KernelIdeal.S64, .f32⟩ : BufTy).Contents (Elt Ideal)) : vec01 (asRow b) = vec1 b := by
  funext c
  unfold vec01 asRow vec1
  exact shapeCast_a_1a_apply b _ 0 c

/-- The host lines' aggregation from the edge list's rows is the reference's aggregation. -/
theorem aggK_eq (x2 : (⟨Cert.KernelIdeal.S2x1600000, .i32⟩ : BufTy).Contents (Elt Ideal)) (Y : (⟨Cert.KernelIdeal.S100000x64, .f32⟩ : BufTy).Contents (Elt Ideal)) : aggK (edgeRow0 x2) (edgeRow1 x2) Y = agg x2 Y := by
  unfold aggK agg edgeRow0 edgeRow1 val_main_v24 val_main_v25 val_main_v22 val_main_v21 val_main_v20 val_main_v18 val_main_v19 val_main_v17
    val_main_cst_2 val_main_c val_main_c_1 val_main_v3 val_main_v2 val_main_v1 val_main_v0
  rfl

/-- Columns 0‥63 of the first stage are the normalised affine image. -/
theorem left_stageA (x0 : (⟨Cert.KernelIdeal.S100000x128, .f32⟩ : BufTy).Contents (Elt Ideal)) (x3 : (⟨Cert.KernelIdeal.S128x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) : left (stageA (N := 100000) x0 x3 (vec1 x4) x5) = val_main_v15 (F := Ideal) x0 x3 x4 := by
  funext i
  obtain ⟨r, c, rfl⟩ : ∃ (r : Fin 100000) (c : Fin 64), i = ix2 r c := ⟨i 0, i 1, eq_ix2 i⟩
  rw [ref_v15]
  unfold left
  rw [extractStridedSlice_apply ![0, 0] _ _ (ix2 r c) (ix2 r (⟨c.val, by omega⟩ : Fin 128)) (fun a => match a with | ⟨0, _⟩ => by show r.val = 0 + r.val; omega | ⟨1, _⟩ => by show c.val = 0 + c.val; omega)]
  exact beside_left _ _ c _

/-- Columns 64‥127 of the first stage are its projection. -/
theorem right_stageA (x0 : (⟨Cert.KernelIdeal.S100000x128, .f32⟩ : BufTy).Contents (Elt Ideal)) (x3 : (⟨Cert.KernelIdeal.S128x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) : right (stageA (N := 100000) x0 x3 (vec1 x4) x5) = val_main_v16 (F := Ideal) x0 x3 x4 x5 := by
  funext i
  obtain ⟨r, c, rfl⟩ : ∃ (r : Fin 100000) (c : Fin 64), i = ix2 r c := ⟨i 0, i 1, eq_ix2 i⟩
  rw [ref_v16]
  unfold right
  rw [extractStridedSlice_apply ![0, 64] _ _ (ix2 r c) (ix2 r (⟨c.val + 64, by omega⟩ : Fin 128)) (fun a => match a with | ⟨0, _⟩ => by show r.val = 0 + r.val; omega | ⟨1, _⟩ => by show c.val + 64 = 64 + c.val; omega)]
  exact beside_right _ _ c _

/-- Columns 0‥63 of the middle stage, at the reference's earlier stages, are the first layer's update. -/
theorem left_stageB (x0 : (⟨Cert.KernelIdeal.S100000x128, .f32⟩ : BufTy).Contents (Elt Ideal)) (x1 : (⟨Cert.KernelIdeal.S100000x64, .f32⟩ : BufTy).Contents (Elt Ideal)) (x2 : (⟨Cert.KernelIdeal.S2x1600000, .i32⟩ : BufTy).Contents (Elt Ideal)) (x3 : (⟨Cert.KernelIdeal.S128x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64x64, .f32⟩ : BufTy).Contents (Elt Ideal)) (x7 : (⟨Cert.KernelIdeal.S64, .f32⟩ : BufTy).Contents (Elt Ideal)) (x8 : (⟨Cert.KernelIdeal.S64x64, .f32⟩ : BufTy).Contents (Elt Ideal)) (x9 : (⟨Cert.KernelIdeal.S64, .f32⟩ : BufTy).Contents (Elt Ideal)) (x10 : (⟨Cert.KernelIdeal.S64x64, .f32⟩ : BufTy).Contents (Elt Ideal)) :
    left (stageB (N := 100000) (val_main_v15 (F := Ideal) x0 x3 x4) (val_main_v26 (F := Ideal) x0 x2 x3 x4 x5) x1 x6 (vec1 x7) x8 (vec1 x9) x10) = val_main_v51 (F := Ideal) x0 x1 x2 x3 x4 x5 x6 x7 x8 x9 := by
  funext i
  obtain ⟨r, c, rfl⟩ : ∃ (r : Fin 100000) (c : Fin 64), i = ix2 r c := ⟨i 0, i 1, eq_ix2 i⟩
  rw [ref_v51]
  unfold left
  rw [extractStridedSlice_apply ![0, 0] _ _ (ix2 r c) (ix2 r (⟨c.val, by omega⟩ : Fin 128)) (fun a => match a with | ⟨0, _⟩ => by show r.val = 0 + r.val; omega | ⟨1, _⟩ => by show c.val = 0 + c.val; omega)]
  exact beside_left _ _ c _

/-- Columns 64‥127 of the middle stage are that update's projection. -/
theorem right_stageB (x0 : (⟨Cert.KernelIdeal.S100000x128, .f32⟩ : BufTy).Contents (Elt Ideal)) (x1 : (⟨Cert.KernelIdeal.S100000x64, .f32⟩ : BufTy).Contents (Elt Ideal)) (x2 : (⟨Cert.KernelIdeal.S2x1600000, .i32⟩ : BufTy).Contents (Elt Ideal)) (x3 : (⟨Cert.KernelIdeal.S128x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64x64, .f32⟩ : BufTy).Contents (Elt Ideal)) (x7 : (⟨Cert.KernelIdeal.S64, .f32⟩ : BufTy).Contents (Elt Ideal)) (x8 : (⟨Cert.KernelIdeal.S64x64, .f32⟩ : BufTy).Contents (Elt Ideal)) (x9 : (⟨Cert.KernelIdeal.S64, .f32⟩ : BufTy).Contents (Elt Ideal)) (x10 : (⟨Cert.KernelIdeal.S64x64, .f32⟩ : BufTy).Contents (Elt Ideal)) :
    right (stageB (N := 100000) (val_main_v15 (F := Ideal) x0 x3 x4) (val_main_v26 (F := Ideal) x0 x2 x3 x4 x5) x1 x6 (vec1 x7) x8 (vec1 x9) x10) = val_main_v52 (F := Ideal) x0 x1 x2 x3 x4 x5 x6 x7 x8 x9 x10 := by
  funext i
  obtain ⟨r, c, rfl⟩ : ∃ (r : Fin 100000) (c : Fin 64), i = ix2 r c := ⟨i 0, i 1, eq_ix2 i⟩
  rw [ref_v52]
  unfold right
  rw [extractStridedSlice_apply ![0, 64] _ _ (ix2 r c) (ix2 r (⟨c.val + 64, by omega⟩ : Fin 128)) (fun a => match a with | ⟨0, _⟩ => by show r.val = 0 + r.val; omega | ⟨1, _⟩ => by show c.val + 64 = 64 + c.val; omega)]
  exact beside_right _ _ c _

/-- The last stage, at the reference's earlier stages, is the second layer's update: the reference's result. -/
theorem stageC_eq (x0 : (⟨Cert.KernelIdeal.S100000x128, .f32⟩ : BufTy).Contents (Elt Ideal)) (x1 : (⟨Cert.KernelIdeal.S100000x64, .f32⟩ : BufTy).Contents (Elt Ideal)) (x2 : (⟨Cert.KernelIdeal.S2x1600000, .i32⟩ : BufTy).Contents (Elt Ideal)) (x3 : (⟨Cert.KernelIdeal.S128x64, .f32⟩ : BufTy).Contents (Elt Ideal)) (x4 : (⟨Cert.KernelIdeal.S64, .f32⟩ : BufTy).Contents (Elt Ideal)) (x5 : (⟨Cert.KernelIdeal.S64x64, .f32⟩ : BufTy).Contents (Elt Ideal)) (x6 : (⟨Cert.KernelIdeal.S64x64, .f32⟩ : BufTy).Contents (Elt Ideal)) (x7 : (⟨Cert.KernelIdeal.S64, .f32⟩ : BufTy).Contents (Elt Ideal)) (x8 : (⟨Cert.KernelIdeal.S64x64, .f32⟩ : BufTy).Contents (Elt Ideal)) (x9 : (⟨Cert.KernelIdeal.S64, .f32⟩ : BufTy).Contents (Elt Ideal)) (x10 : (⟨Cert.KernelIdeal.S64x64, .f32⟩ : BufTy).Contents (Elt Ideal)) (x11 : (⟨Cert.KernelIdeal.S64x64, .f32⟩ : BufTy).Contents (Elt Ideal)) (x12 : (⟨Cert.KernelIdeal.S64, .f32⟩ : BufTy).Contents (Elt Ideal)) (x13 : (⟨Cert.KernelIdeal.S64x64, .f32⟩ : BufTy).Contents (Elt Ideal)) (x14 : (⟨Cert.KernelIdeal.S64, .f32⟩ : BufTy).Contents (Elt Ideal)) :
    stageC (N := 100000) (val_main_v51 (F := Ideal) x0 x1 x2 x3 x4 x5 x6 x7 x8 x9) (val_main_v62 (F := Ideal) x0 x1 x2 x3 x4 x5 x6 x7 x8 x9 x10) x1 x11 (vec1 x12) x13 (vec1 x14) = val_main_v87 (F := Ideal) x0 x1 x2 x3 x4 x5 x6 x7 x8 x9 x10 x11 x12 x13 x14 := by
  funext i
  obtain ⟨r, c, rfl⟩ : ∃ (r : Fin 100000) (c : Fin 64), i = ix2 r c := ⟨i 0, i 1, eq_ix2 i⟩
  rw [ref_v87]
  rfl

end Cert.Bridge

end
-- ==== Proof.RefRun.lean ====
/-
  The reference program's run with its result at the last stage.

  The reference is one straight line of host operations, so every execution ends with each buffer at the fold of the
  operations over the launch contents.  Read from ANY memory, that fold leaves the result buffer at the composed
  stage `val_main_v87` of the fifteen argument buffers (each operation's result is the corresponding stage of its
  operands, and no operation writes an argument), and leaves every buffer outside the list of written ones alone.
-/
import proofs.«146292_j66013647339805_2_alg».proof.Proof.RefRunP
import proofs.«146292_j66013647339805_2_alg».proof.Proof.RefReadP

noncomputable section

namespace Cert.ReferenceIdeal.RefRun

open Cert.ReferenceIdeal Cert.ReferenceIdeal.Gen Cert.ReferenceIdeal.ValueP Idealize.ShloMosaic Idealize.ShloMosaic.TcCoe Idealize.SL.Sem
  Idealize.ShloMosaic.StableHlo

variable {F : FTy → Type} [FloatOps F]

/-- The buffers the operations write: every buffer of the program but its fifteen arguments. -/
def written : List (Ref sig .tc) := [main_v0, main_v1, main_v2, main_v3, main_v4, main_v5, main_v6, main_v7, main_v8, main_cst, main_v9, main_v10, main_v11, main_cst_0, main_v12, main_v13, main_v14, main_v15, main_v16, main_c, main_v17, main_v18, main_c_1, main_v19, main_v20, main_v21, main_v22, main_v23, main_cst_2, main_v24, main_v25, main_v26, main_cst_3, main_v27, main_v28, main_cst_4, main_v29, main_v30, main_v31, main_v32, main_v33, main_v34, main_v35, main_cst_5, main_v36, main_v37, main_cst_6, main_v38, main_v39, main_v40, main_v41, main_v42, main_v43, main_v44, main_v45, main_v46, main_cst_7, main_v47, main_v48, main_cst_8, main_v49, main_v50, main_v51, main_v52, main_c_9, main_v53, main_v54, main_c_10, main_v55, main_v56, main_v57, main_v58, main_v59, main_cst_11, main_v60, main_v61, main_v62, main_cst_12, main_v63, main_v64, main_cst_13, main_v65, main_v66, main_v67, main_v68, main_v69, main_v70, main_v71, main_cst_14, main_v72, main_v73, main_cst_15, main_v74, main_v75, main_v76, main_v77, main_v78, main_v79, main_v80, main_v81, main_v82, main_cst_16, main_v83, main_v84, main_cst_17, main_v85, main_v86, main_v87]

set_option maxRecDepth 8192 in
/-- A buffer no operation writes keeps its contents. -/
theorem keep (Wr : Valuation τ sig (Elt F)) (b : Ref sig .tc) (hb : b ∉ written) :
    after (ops (F := F)) Wr (Proc.devRef .tc b) = Wr (Proc.devRef .tc b) := by
  refine after_of_writes_sub (W := written) ops Wr ?_ hb
  simp only [ops, List.Forall]
  repeat' apply And.intro
  all_goals
    simp only [nullary_writes, unary_writes, binary_writes, ternary_writes, reshape_writes,
      Finset.singleton_subset_iff, List.mem_toFinset]
    exact List.mem_map_of_mem (by decide)

set_option maxRecDepth 8192 in
set_option maxHeartbeats 4000000 in
/-- The result buffer after the operations, from any memory: the last stage of the argument buffers. -/
theorem result (Wr : Valuation τ sig (Elt F)) :
    after (ops (F := F)) Wr (Proc.devRef .tc main_v87)
      = Cert.ReferenceIdeal.ReadP.val_main_v87 (F := F) (Wr (Proc.devRef .tc main_arg0)) (Wr (Proc.devRef .tc main_arg1)) (Wr (Proc.devRef .tc main_arg2)) (Wr (Proc.devRef .tc main_arg3)) (Wr (Proc.devRef .tc main_arg4)) (Wr (Proc.devRef .tc main_arg5)) (Wr (Proc.devRef .tc main_arg6)) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)) (Wr (Proc.devRef .tc main_arg13)) (Wr (Proc.devRef .tc main_arg14)) := by
  after_results_simp
  rfl

/-- The run: the result at the last stage of the launch arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = Cert.ReferenceIdeal.ReadP.val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v87).trans (result (launchContents m c)),
      (h c main_arg0).trans (keep (launchContents m c) main_arg0 (by decide)),
      (h c main_arg1).trans (keep (launchContents m c) main_arg1 (by decide)),
      (h c main_arg2).trans (keep (launchContents m c) main_arg2 (by decide)),
      (h c main_arg3).trans (keep (launchContents m c) main_arg3 (by decide)),
      (h c main_arg4).trans (keep (launchContents m c) main_arg4 (by decide)),
      (h c main_arg5).trans (keep (launchContents m c) main_arg5 (by decide)),
      (h c main_arg6).trans (keep (launchContents m c) main_arg6 (by decide)),
      (h c main_arg7).trans (keep (launchContents m c) main_arg7 (by decide)),
      (h c main_arg8).trans (keep (launchContents m c) main_arg8 (by decide)),
      (h c main_arg9).trans (keep (launchContents m c) main_arg9 (by decide)),
      (h c main_arg10).trans (keep (launchContents m c) main_arg10 (by decide)),
      (h c main_arg11).trans (keep (launchContents m c) main_arg11 (by decide)),
      (h c main_arg12).trans (keep (launchContents m c) main_arg12 (by decide)),
      (h c main_arg13).trans (keep (launchContents m c) main_arg13 (by decide)),
      (h c main_arg14).trans (keep (launchContents m c) main_arg14 (by decide))⟩)
    (run_raw m ρ)

end Cert.ReferenceIdeal.RefRun

end
-- ==== Proof.lean ====
/-
  The certificate: a three-stage graph-convolution forward pass as three tiled kernels with host-side neighbour
  aggregation between them, against the same computation written as plain array operations.

  Both programs compute, for every node: the affine image of its feature row, divided by the larger of that image's
  Euclidean norm and a small constant; then twice a layer update `leaky ((leaky h · Wg + bg) + (leaky (x·Wl + bl) + e))`,
  where `h` sums, over the edges into the node, the rows `x·Wc` of the edges' source nodes, and `e` is the node's
  identity row.  The kernels work on blocks of 10000 consecutive rows and carry `x` and `x·Wc` side by side in one
  128-column array; the reference works on whole arrays.  On the extended reals a matrix-unit product into a zero
  accumulator, the host's dot-product and a row sum are the same plain sums, the two programs' square roots and
  quotients are the same functions, and every node-wise stage depends on the node's own rows only, so block by block
  the kernels' arrays are the reference's stages; the aggregation between stages is the same sequence of host
  operations in both programs and is carried as one function, never opened.  No step needs the inputs to be finite.

  The kernel programs' frames are the generated ones; the reference's frame and value come from its straight-line
  run; `preserves` is trivial (the idealized kernel is the kernel's own text read on the extended reals).
-/
import proofs.«146292_j66013647339805_2_alg».proof.Defs
import proofs.«146292_j66013647339805_2_alg».proof.Proof.Gen.Kernel
import proofs.«146292_j66013647339805_2_alg».proof.Proof.Gen.Kernel.Skeleton
import proofs.«146292_j66013647339805_2_alg».proof.Proof.Gen.Kernel.Launch
import proofs.«146292_j66013647339805_2_alg».proof.Proof.Gen.Kernel.Points
import proofs.«146292_j66013647339805_2_alg».proof.Proof.Gen.Kernel.Frame
import proofs.«146292_j66013647339805_2_alg».proof.Proof.Gen.KernelIdeal
import proofs.«146292_j66013647339805_2_alg».proof.Proof.Gen.KernelIdeal.Skeleton
import proofs.«146292_j66013647339805_2_alg».proof.Proof.Gen.KernelIdeal.Launch
import proofs.«146292_j66013647339805_2_alg».proof.Proof.Gen.KernelIdeal.Points
import proofs.«146292_j66013647339805_2_alg».proof.Proof.Gen.KernelIdeal.Frame
import proofs.«146292_j66013647339805_2_alg».proof.Proof.Gen.ReferenceIdeal
import proofs.«146292_j66013647339805_2_alg».proof.Proof.Gen.Pre_finite_inputs
import proofs.«146292_j66013647339805_2_alg».proof.Proof.Chain
import proofs.«146292_j66013647339805_2_alg».proof.Proof.Bridge
import proofs.«146292_j66013647339805_2_alg».proof.Proof.RefRun
import Idealize.ShloMosaic.Adequacy
import Idealize.ShloMosaic.Init

noncomputable section

namespace Cert.Proof

open Idealize.ShloMosaic Idealize.ShloMosaic.TcCoe Idealize.SL.Sem
open Cert.KernelIdeal.Chain Cert.KernelIdeal.HostLines Cert.Bridge Cert.ReferenceIdeal.ReadP Cert.ReferenceIdeal.Rows

/-- The kernel program's last array is the reference's last stage of the same arguments: each boundary array is the
    reference's stage (the halves of the first and the middle arrays, the aggregations of their right halves). -/
theorem result_eq (m : (ℓ : Loc Cert.KernelIdeal.nD Cert.KernelIdeal.τ Cert.KernelIdeal.sig) → Buf (Elt Ideal) ℓ)
    (c : Dev Cert.KernelIdeal.nD) :
    arrC m c = val_main_v87 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  unfold arrC arrB arrA src dst
  rw [vec01_asRow, vec01_asRow, vec01_asRow, vec01_asRow, vec01_asRow, left_stageA, right_stageA, aggK_eq, ← v26_eq,
    left_stageB, right_stageB, aggK_eq, ← v62_eq, stageC_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both runs end with the result at the reference's last stage of arguments that agree. -/
theorem algebraic : Cert.algebraic_KernelIdeal_ReferenceIdeal := by
  intro m ρ m' ρ' _ hagree
  refine ⟨fun c => arrC m c, Cert.KernelIdeal.Chain.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14⟩ := hagree c
  rw [h0, h1, h2, h3, h4, h5, h6, h7, h8, h9, h10, h11, h12, h13, h14]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
